-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16 : Shape := ⟨2, ![16384, 16]⟩
abbrev S16384x16384 : Shape := ⟨2, ![16384, 16384]⟩
abbrev S_ : Shape := ⟨0, ![]⟩

class Facts : Prop where
  bcast_S_S16384x16 : S_.BroadcastsInDim S16384x16 (![] : Fin 0 → Fin S16384x16.rank)
  reducesTo_S16384x16_S_d0_1 : S16384x16.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_

variable [Facts]

def fn {F : FTy → Type} [FloatOps F] (main_arg0 : FVec F S16384x16 .f32) (main_arg1 : FVec F S16384x16384 .f32) : IVec S_ 1 :=
  let main_v0 : FVec F S16384x16 .f32 := Host.absf main_arg0
  let main_cst : FVec F S_ .f32 := constant S_ .f32 0x7F800000#32
  let main_v1 : FVec F S16384x16 .f32 := broadcastInDim S16384x16 ![] bcast_S_S16384x16 main_cst
  let main_v2 : IVec S16384x16 1 := cmpf .olt main_v0 main_v1
  let main_c : IVec S_ 1 := constantI S_ 1 1#1
  let main_v3 : IVec S_ 1 := (fun x v => Host.reduce IntOp.andi x v reducesTo_S16384x16_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  main_v8
-- ==== Kernel.lean ====
abbrev S16384x16 : Shape := ⟨2, ![16384, 16]⟩
abbrev S16384x16384 : Shape := ⟨2, ![16384, 16384]⟩
abbrev S16384x1 : Shape := ⟨2, ![16384, 1]⟩
abbrev S1024x2048 : Shape := ⟨2, ![1024, 2048]⟩
abbrev S2048x16 : Shape := ⟨2, ![2048, 16]⟩
abbrev S1024x16 : Shape := ⟨2, ![1024, 16]⟩
abbrev S1024x1 : Shape := ⟨2, ![1024, 1]⟩
abbrev S1024 : Shape := ⟨1, ![1024]⟩
abbrev S_ : Shape := ⟨0, ![]⟩

abbrev nBuf : Space → Nat
  | .hbm => 8
  | .vmem => 9
  | .smem => 0
  | _ => 0

abbrev bufTy : (tb : Table) → Fin (tcTables nBuf tb) → BufTy
  | .hbm, ⟨0, _⟩ => ⟨S16384x16, .f32⟩
  | .hbm, ⟨1, _⟩ => ⟨S16384x16384, .f32⟩
  | .hbm, ⟨2, _⟩ => ⟨S16384x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S2048x16, .f32⟩
  | .local _ .vmem, ⟨3, _⟩ => ⟨S2048x16, .f32⟩
  | .local _ .vmem, ⟨4, _⟩ => ⟨S1024x16, .f32⟩
  | .local _ .vmem, ⟨5, _⟩ => ⟨S1024x16, .f32⟩
  | .local _ .vmem, ⟨6, _⟩ => ⟨S1024x1, .f32⟩
  | .local _ .vmem, ⟨7, _⟩ => ⟨S1024x1, .f32⟩
  | .local _ .vmem, ⟨8, _⟩ => ⟨S1024x16, .f32⟩
  | _, _ => ⟨S16384x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x16_S2048x16_0_0 : ∀ a, (![0, 0] : Fin 2 → Nat) a + S2048x16.size a ≤ S2048x16.size a
  h_S2048x16 : 0 < S2048x16.numel
  reduces_S1024x16_S1024 : S1024x16.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  reducesTo_S16384x1_S_d0_1 : S16384x1.ReducesTo [0, 1] S_
  h_S_ : 0 < S_.numel
  dot_S1024x2048_S2048x16_S1024x16_1_0_0_1_n_n_wf : DotDims.WF S1024x2048 S2048x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S16384x16.size a
  hwx0_1 : ∀ i : grid0.Coords, EltTy.bits .f32 = 32 ∨ (Rect.block (s := S16384x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S16384x16.size a
  hwx0_2 : ∀ i : grid0.Coords, EltTy.bits .f32 = 32 ∨ (Rect.block (s := S16384x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .f32 = 32 ∨ (Rect.block (s := S16384x1) S1024x1.size (cc0_transform_3 i) (hinb0_3 i)).WholeWords (EltTy.packing .f32)

variable [Facts₀]

def dot_S1024x2048_S2048x16_S1024x16_1_0_0_1_n_n : DotDims S1024x2048 S2048x16 S1024x16 where
  lhsContracting := [1]
  rhsContracting := [0]
  lhsNonContracting := [0]
  rhsNonContracting := [1]
  lhsBatch := []
  rhsBatch := []
  wf := dot_S1024x2048_S2048x16_S1024x16_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x16 : Shape := ⟨2, ![16384, 16]⟩
abbrev S16384x16384 : Shape := ⟨2, ![16384, 16384]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x16, .f32⟩
  | .hbm, ⟨1, _⟩ => ⟨S16384x16384, .f32⟩
  | .hbm, ⟨2, _⟩ => ⟨S16384x16, .f32⟩
  | .hbm, ⟨3, _⟩ => ⟨S16384x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | _, _ => ⟨S16384x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S16384x16_S_d0_1 : S16384x16.ReducesTo [0, 1] S_
  h_S_ : 0 < S_.numel
  dot_S16384x16384_S16384x16_S16384x16_1_0_0_1_n_n_wf : DotDims.WF S16384x16384 S16384x16 S16384x16 [1] [0] [0] [1] [] []

variable [Facts₀]

def dot_S16384x16384_S16384x16_S16384x16_1_0_0_1_n_n : DotDims S16384x16384 S16384x16 S16384x16 where
  lhsContracting := [1]
  rhsContracting := [0]
  lhsNonContracting := [0]
  rhsNonContracting := [1]
  lhsBatch := []
  rhsBatch := []
  wf := dot_S16384x16384_S16384x16_S16384x16_1_0_0_1_n_n_wf

class Facts : Prop extends Facts₀ where

variable [Facts]
-- ==== Proof.K.Runs.lean ====
/-
  The kernel body, run once per kind of grid step.

  The grid is 16 row blocks by 8 column blocks of P, walked row block by row block; within a row block
  the second coordinate k runs 0 … 7.  The body zeroes the accumulator when k = 0, adds this step's
  1024 x 2048 by 2048 x 16 product to it at every step, and when k = 7 multiplies the accumulator by the
  row block of the input, sums each row's sixteen products and stores the 1024 x 1 column.  So there are
  three kinds of step: the first of a row block (zero, accumulate), a middle one (accumulate), the last
  (accumulate, reduce and store).  Each run below is the body's triple on arbitrary whole staging
  buffers, the two branch conditions decided by the step's kind; what the stores leave in the
  accumulator and in the output block is found by the run as a list of written pieces.
-/
import proofs.«118014_j1614907703898_2_alg».proof.Proof.Gen.Kernel.Launch
import proofs.«118014_j1614907703898_2_alg».proof.Proof.Gen.Kernel.Skeleton
import proofs.«118014_j1614907703898_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.Kernel Cert.Kernel.Gen

/-! ## The two branch conditions, decided over the grid -/

/-- The body's first condition, "k = 0", as the body computes it from the grid coordinates. -/
abbrev condFirst (i : grid0.Coords) : Prop :=
  (Scalar.cmpi .ne (Scalar.extui (Scalar.cmpi .eq (BitVec.ofNat 32 (i 1).val) 0#32)) 0#32) = 1#1
/-- The body's second condition, "k = 7". -/
abbrev condLast (i : grid0.Coords) : Prop := k0_cond2 i = 1#1

/-- Point t of the grid has k = t mod 8: the first condition holds exactly at the multiples of 8, -/
theorem hcondFirst : ∀ t : Fin cfg0.N, condFirst (grid0.coords t) ↔ t.val % 8 = 0 :=
  (by decide +kernel : ∀ t : Fin grid0.N, condFirst (grid0.coords t) ↔ t.val % 8 = 0)
/-- and the second exactly at the points that are 7 modulo 8. -/
theorem hcondLast : ∀ t : Fin cfg0.N, condLast (grid0.coords t) ↔ t.val % 8 = 7 :=
  (by decide +kernel : ∀ t : Fin grid0.N, condLast (grid0.coords t) ↔ t.val % 8 = 7)

/-! ## The three runs -/

set_option maxHeartbeats 1000000 in
/-- FIRST step of a row block (k = 0): the accumulator, whatever it held, is zeroed and then holds zero
    plus this step's product. The P block and the input's row block for the product are read and left as
    they were; the other two buffers are not touched. -/
noncomputable def runFirst (c : Dev nD) (i : grid0.Coords)
    (arg2 : Memref sig .tc .vmem S1024x2048 .f32) (harg2 : arg2.IsWhole) (arg3 : Memref sig .tc .vmem S2048x16 .f32) (harg3 : arg3.IsWhole)
    (arg4 : Memref sig .tc .vmem S1024x16 .f32) (harg4 : arg4.IsWhole) (arg5 : Memref sig .tc .vmem S1024x1 .f32) (harg5 : arg5.IsWhole)
    (arg6 : Memref sig .tc .vmem S1024x16 .f32) (harg6 : arg6.IsWhole) (h0 : condFirst i) (h7 : ¬condLast i)
    (x0 : Vec F S1024x2048 .f32) (x1 : Vec F S2048x16 .f32) :
    { LS : List (View.Piece (Elt F) S1024x16 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ K ⟨⟩))
          ⊢ wp frame (wpE (defs₀ (F := F)) Variants.none c none) E (cc0_kernel i arg2 harg2 arg3 harg3 arg4 harg4 arg5 harg5 arg6 harg6) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- MIDDLE step (0 < k < 7): the accumulator, holding xs, ends holding xs plus this step's product. -/
noncomputable def runMid (c : Dev nD) (i : grid0.Coords)
    (arg2 : Memref sig .tc .vmem S1024x2048 .f32) (harg2 : arg2.IsWhole) (arg3 : Memref sig .tc .vmem S2048x16 .f32) (harg3 : arg3.IsWhole)
    (arg4 : Memref sig .tc .vmem S1024x16 .f32) (harg4 : arg4.IsWhole) (arg5 : Memref sig .tc .vmem S1024x1 .f32) (harg5 : arg5.IsWhole)
    (arg6 : Memref sig .tc .vmem S1024x16 .f32) (harg6 : arg6.IsWhole) (h0 : ¬condFirst i) (h7 : ¬condLast i)
    (x0 : Vec F S1024x2048 .f32) (x1 : Vec F S2048x16 .f32) (xs : Vec F S1024x16 .f32) :
    { LS : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ K ⟨⟩))
          ⊢ wp frame (wpE (defs₀ (F := F)) Variants.none c none) E (cc0_kernel i arg2 harg2 arg3 harg3 arg4 harg4 arg5 harg5 arg6 harg6) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- LAST step of a row block (k = 7): the accumulator ends holding xs plus this step's product, and the
    output block, whatever it held, the row sums of the input's row block times that. -/
noncomputable def runLast (c : Dev nD) (i : grid0.Coords)
    (arg2 : Memref sig .tc .vmem S1024x2048 .f32) (harg2 : arg2.IsWhole) (arg3 : Memref sig .tc .vmem S2048x16 .f32) (harg3 : arg3.IsWhole)
    (arg4 : Memref sig .tc .vmem S1024x16 .f32) (harg4 : arg4.IsWhole) (arg5 : Memref sig .tc .vmem S1024x1 .f32) (harg5 : arg5.IsWhole)
    (arg6 : Memref sig .tc .vmem S1024x16 .f32) (harg6 : arg6.IsWhole) (h0 : ¬condFirst i) (h7 : condLast i)
    (x0 : Vec F S1024x2048 .f32) (x1 : Vec F S2048x16 .f32) (x2 : Vec F S1024x16 .f32) (xs : Vec F S1024x16 .f32) :
    Σ' (LO : List (View.Piece (Elt F) S1024x1 .f32)), { LS : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0_kernel i arg2 harg2 arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d5, %f5, -, H5⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact HS

end Cert.Kernel.Hand

end
-- ==== Proof.K.Pieces.lean ====
/-
  What each kind of grid step leaves behind, as values.

  Every store of the body writes a whole buffer through the rectangle at offset zero of the buffer's own
  size, and every load reads a whole buffer the same way.  So the last store into a buffer decides its
  contents, and a load after a store reads that store's value.  Read this way the three runs leave:
  after a first step the accumulator at "zero plus the product", after a middle or a last step at "what it
  held plus the product", and after a last step the output block at the row sums of the input's row
  block times the accumulator just stored.
-/
import proofs.«118014_j1614907703898_2_alg».proof.Proof.K.Runs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.Kernel Cert.Kernel.Gen

/-- The offsets of every access of the body: zero on both axes. -/
theorem off_zero : (![0, 0] : Fin 2 → Nat) = fun _ => 0 := by
  funext a; match a with | ⟨0, _⟩ => rfl | ⟨1, _⟩ => rfl

/-- After a first step the accumulator holds the product added to the zeros just stored. -/
theorem first_acc (c : Dev nD) (i : grid0.Coords)
    (arg2 : Memref sig .tc .vmem S1024x2048 .f32) (harg2 : arg2.IsWhole) (arg3 : Memref sig .tc .vmem S2048x16 .f32) (harg3 : arg3.IsWhole)
    (arg4 : Memref sig .tc .vmem S1024x16 .f32) (harg4 : arg4.IsWhole) (arg5 : Memref sig .tc .vmem S1024x1 .f32) (harg5 : arg5.IsWhole)
    (arg6 : Memref sig .tc .vmem S1024x16 .f32) (harg6 : arg6.IsWhole) (h0 : condFirst i) (h7 : ¬condLast i)
    (x0 : Vec F S1024x2048 .f32) (x1 : Vec F S2048x16 .f32) (f : arg6.view.ty.Contents (Elt F)) :
    arg6.view.read (Elt F) (arg6.view.writes (Elt F) f (runFirst c i arg2 harg2 arg3 harg3 arg4 harg4 arg5 harg5 arg6 harg6 h0 h7 x0 x1).1)
      = k0_pay2 x0 x1 (k0_pay1 (F := F)) := by
  rw [View.read_writes_eq_canon _ _ _ (View.cover_of_tiledL _ S1024x16.size (by sl_kernel_rfl))]
  unfold runFirst; dsimp only; sl_unfold_words
  rw [View.canon_cons_unit_zero off_zero]
  simp only [View.readAt_eq_ld, harg2.read_unread, harg3.read_unread, View.ld_unit_zero (S := S1024x2048) off_zero,
    View.ld_unit_zero (S := S2048x16) off_zero, View.readCov_unit_zero (S := S1024x16) _ off_zero]

/-- After a middle step the accumulator holds the product added to what it held. -/
theorem mid_acc (c : Dev nD) (i : grid0.Coords)
    (arg2 : Memref sig .tc .vmem S1024x2048 .f32) (harg2 : arg2.IsWhole) (arg3 : Memref sig .tc .vmem S2048x16 .f32) (harg3 : arg3.IsWhole)
    (arg4 : Memref sig .tc .vmem S1024x16 .f32) (harg4 : arg4.IsWhole) (arg5 : Memref sig .tc .vmem S1024x1 .f32) (harg5 : arg5.IsWhole)
    (arg6 : Memref sig .tc .vmem S1024x16 .f32) (harg6 : arg6.IsWhole) (h0 : ¬condFirst i) (h7 : ¬condLast i)
    (x0 : Vec F S1024x2048 .f32) (x1 : Vec F S2048x16 .f32) (xs : Vec F S1024x16 .f32) (f : arg6.view.ty.Contents (Elt F)) :
    arg6.view.read (Elt F) (arg6.view.writes (Elt F) f (runMid c i arg2 harg2 arg3 harg3 arg4 harg4 arg5 harg5 arg6 harg6 h0 h7 x0 x1 xs).1)
      = k0_pay2 x0 x1 xs := by
  rw [View.read_writes_eq_canon _ _ _ (View.cover_of_tiledL _ S1024x16.size (by sl_kernel_rfl))]
  unfold runMid; dsimp only; sl_unfold_words
  rw [View.canon_cons_unit_zero off_zero]
  simp only [View.readAt_eq_ld, harg2.read_unread, harg3.read_unread, harg6.read_unread, View.ld_unit_zero (S := S1024x2048) off_zero,
    View.ld_unit_zero (S := S2048x16) off_zero, View.ld_unit_zero (S := S1024x16) off_zero]

/-- After a last step the accumulator holds the product added to what it held, -/
theorem last_acc (c : Dev nD) (i : grid0.Coords)
    (arg2 : Memref sig .tc .vmem S1024x2048 .f32) (harg2 : arg2.IsWhole) (arg3 : Memref sig .tc .vmem S2048x16 .f32) (harg3 : arg3.IsWhole)
    (arg4 : Memref sig .tc .vmem S1024x16 .f32) (harg4 : arg4.IsWhole) (arg5 : Memref sig .tc .vmem S1024x1 .f32) (harg5 : arg5.IsWhole)
    (arg6 : Memref sig .tc .vmem S1024x16 .f32) (harg6 : arg6.IsWhole) (h0 : ¬condFirst i) (h7 : condLast i)
    (x0 : Vec F S1024x2048 .f32) (x1 : Vec F S2048x16 .f32) (x2 xs : Vec F S1024x16 .f32) (f : arg6.view.ty.Contents (Elt F)) :
    arg6.view.read (Elt F) (arg6.view.writes (Elt F) f (runLast c i arg2 harg2 arg3 harg3 arg4 harg4 arg5 harg5 arg6 harg6 h0 h7 x0 x1 x2 xs).2.1)
      = k0_pay2 x0 x1 xs := by
  rw [View.read_writes_eq_canon _ _ _ (View.cover_of_tiledL _ S1024x16.size (by sl_kernel_rfl))]
  unfold runLast; dsimp only; sl_unfold_words
  rw [View.canon_cons_unit_zero off_zero]
  simp only [View.readAt_eq_ld, harg2.read_unread, harg3.read_unread, harg6.read_unread, View.ld_unit_zero (S := S1024x2048) off_zero,
    View.ld_unit_zero (S := S2048x16) off_zero, View.ld_unit_zero (S := S1024x16) off_zero]

/-- and the output block the row sums of the input's row block times that accumulator. -/
theorem last_out (c : Dev nD) (i : grid0.Coords)
    (arg2 : Memref sig .tc .vmem S1024x2048 .f32) (harg2 : arg2.IsWhole) (arg3 : Memref sig .tc .vmem S2048x16 .f32) (harg3 : arg3.IsWhole)
    (arg4 : Memref sig .tc .vmem S1024x16 .f32) (harg4 : arg4.IsWhole) (arg5 : Memref sig .tc .vmem S1024x1 .f32) (harg5 : arg5.IsWhole)
    (arg6 : Memref sig .tc .vmem S1024x16 .f32) (harg6 : arg6.IsWhole) (h0 : ¬condFirst i) (h7 : condLast i)
    (x0 : Vec F S1024x2048 .f32) (x1 : Vec F S2048x16 .f32) (x2 xs : Vec F S1024x16 .f32) (f : arg5.view.ty.Contents (Elt F)) :
    arg5.view.read (Elt F) (arg5.view.writes (Elt F) f (runLast c i arg2 harg2 arg3 harg3 arg4 harg4 arg5 harg5 arg6 harg6 h0 h7 x0 x1 x2 xs).1)
      = k0_pay3 x2 (k0_pay2 x0 x1 xs) := by
  rw [View.read_writes_eq_canon _ _ _ (View.cover_of_tiledL _ S1024x1.size (by sl_kernel_rfl))]
  unfold runLast; dsimp only; sl_unfold_words
  rw [View.canon_cons_unit_zero off_zero]
  simp only [View.readAt_eq_ld, harg2.read_unread, harg3.read_unread, harg4.read_unread, harg6.read_unread,
    View.ld_unit_zero (S := S1024x2048) off_zero, View.ld_unit_zero (S := S2048x16) off_zero, View.ld_unit_zero (S := S1024x16) off_zero,
    View.readCov_unit_zero (S := S1024x16) _ off_zero]

end Cert.Kernel.Hand

end
-- ==== Proof.K.Data.lean ====
/-
  The pipeline's proof data.

  Window 0 stages the 1024 x 2048 blocks of P, window 1 the 2048 x 16 row blocks of the input that
  multiply them, window 2 the 1024 x 16 row block of the input for the row block's epilogue, window 3 the
  1024 x 1 output block.  Windows 1 and 2 read the SAME array, so each holds half of it.
  At grid point t (row block t / 8, column block k = t mod 8) the accumulator ends holding
      acc(t) = product(t) added to (zero if k = 0, else acc(t - 1)),
  and at k = 7 the output block holds the row sums of (input row block) times acc(t).
  Between points the accumulator's buffer is part of the invariant: before point 0 it holds anything,
  before point t + 1 it holds acc(t).  The output window is idle except at k = 7, where it is written
  back, so its buffer is handed over and taken back untouched at every other point.
-/
import proofs.«118014_j1614907703898_2_alg».proof.Proof.K.Pieces

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ)

/-- A core's buffers when the region is entered: the launch memory (the region is the first line of the program). -/
abbrev V (c : Dev nD) (b : Ref sig .tc) : Buf (Elt F) ((c : Thread nD τ).loc b) := m ((c : Thread nD τ).loc b)

/-- Window w's block at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The accumulator after point n: this point's product added to zero at the first step of a row block, to the
    accumulator after the point before otherwise. -/
def accAt (c : Dev nD) : (n : ℕ) → n < cfg0.N → Vec F S1024x16 .f32
  | 0, hn => k0_pay2 (iblk m c 0 ⟨0, hn⟩) (iblk m c 1 ⟨0, hn⟩) (k0_pay1 (F := F))
  | n + 1, hn =>
    if (n + 1) % 8 = 0 then k0_pay2 (iblk m c 0 ⟨n + 1, hn⟩) (iblk m c 1 ⟨n + 1, hn⟩) (k0_pay1 (F := F))
    else k0_pay2 (iblk m c 0 ⟨n + 1, hn⟩) (iblk m c 1 ⟨n + 1, hn⟩) (accAt c n (Nat.lt_of_succ_lt hn))

theorem accAt_first (c : Dev nD) (t : Fin cfg0.N) (h : t.val % 8 = 0) :
    accAt m c t.val t.isLt = k0_pay2 (iblk m c 0 t) (iblk m c 1 t) (k0_pay1 (F := F)) := by
  obtain ⟨n, hn⟩ := t
  cases n with
  | zero => rfl
  | succ n => exact if_pos h

theorem accAt_next (c : Dev nD) (t : Fin cfg0.N) (h : ¬t.val % 8 = 0) :
    accAt m c t.val t.isLt = k0_pay2 (iblk m c 0 t) (iblk m c 1 t)
      (accAt m c (t.val - 1) (Nat.lt_of_le_of_lt (Nat.sub_le _ _) t.isLt)) := by
  obtain ⟨n, hn⟩ := t
  cases n with
  | zero => exact absurd (Nat.zero_mod _) h
  | succ n => exact if_neg h

/-- The output block a last step stores: the row sums of the input's row block times the accumulator. -/
def outAt (c : Dev nD) (t : Fin cfg0.N) : Vec F S1024x1 .f32 := k0_pay3 (iblk m c 2 t) (accAt m c t.val t.isLt)

/-- The accumulator's buffer, whole. -/
abbrev accM : Memref sig .tc .vmem S1024x16 .f32 := Memref.whole cc0_scratch0

/-- The invariant before point n: the accumulator's buffer at anything before the first point, at the
    accumulator after the point before otherwise. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, h => owns (c : Thread nD τ) accM fullShare (accAt m c n h)

/-- The proof data on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.lt_succ_iff.mp t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input window's current buffer holds its block at every point, fetched there or not: unfetched, the
    block index has not moved since the point before. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- The invariant's two forms. -/
theorem Phi_zero (c : Dev nD) (t : Fin (cfg0.N + 1)) (h : t.val = 0) :
    (dats m 0 c).Φ t = Pipeline.scopedRest (Ix := Unit) (Name := ℕ) (U := UR sig nD τ) (Lvl := ℕ) (Val := Elt F) spec0 c := by
  obtain ⟨n, hn⟩ := t
  cases n with
  | zero => rfl
  | succ n => exact absurd h (Nat.succ_ne_zero n)

theorem Phi_succ (c : Dev nD) (t : Fin cfg0.N) :
    (dats m 0 c).Φ t.succ = owns (c : Thread nD τ) accM fullShare (accAt m c t.val t.isLt) := rfl

theorem Phi_pos (c : Dev nD) (t : Fin cfg0.N) (h : t.val ≠ 0) :
    (dats m 0 c).Φ t.castSucc = owns (c : Thread nD τ) accM fullShare (accAt m c (t.val - 1) (Nat.lt_of_le_of_lt (Nat.sub_le _ _) t.isLt)) := by
  obtain ⟨n, hn⟩ := t
  cases n with
  | zero => exact absurd rfl h
  | succ n => rfl

end Cert.Kernel.Hand

end
-- ==== Proof.K.Body.lean ====
/-
  The body obligation at a symbolic grid point.

  The point's kind is read off t mod 8.  At every point the two product operands' buffers hold their
  blocks and come back unchanged, and so does the epilogue operand's.  The accumulator enters through the
  invariant (at anything before a first step, at the previous point's accumulator otherwise) and leaves
  at this point's accumulator.  The output's buffer is untouched except at a last step, where it leaves at
  the output block.
-/
import proofs.«118014_j1614907703898_2_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ)

/-- The windows' current staging memrefs at point t, as the pipeline passes them. -/
abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)

/-- The output window is live exactly at the last step of a row block, -/
theorem idle3_last (t : Fin cfg0.N) (h : t.val % 8 = 7) : cfg0.idle 3 (cfg0.grid.coords t) = false := by
  show (!(k0_cond2 (grid0.coords t) == 1#1)) = false
  rw [(hcondLast t).mpr h]; rfl
theorem idle3_not (t : Fin cfg0.N) (h : ¬t.val % 8 = 7) : cfg0.idle 3 (cfg0.grid.coords t) = true := by
  show (!(k0_cond2 (grid0.coords t) == 1#1)) = true
  have hne : ¬k0_cond2 (grid0.coords t) = 1#1 := fun e => h ((hcondLast t).mp e)
  simp [hne]
/-- and is written back exactly there. -/
theorem flush3_not (t : Fin cfg0.N) (h : ¬t.val % 8 = 7) : (cfg0.win 3).flush t = false :=
  Bool.eq_false_iff.mpr fun hf => h ((flush0_3 t).mp hf)

/-- Whatever the invariant before a point holds, it holds the accumulator's buffer at something. -/
theorem Phi_any (c : Dev nD) (t : Fin cfg0.N) :
    (dats m 0 c).Φ t.castSucc ⊢ (iprop(∃ d, owns (c : Thread nD τ) accM fullShare d) : sProp 𝕄) := by
  by_cases h : t.val = 0
  · rw [Phi_zero m c t.castSucc h, scopedRest0_eq]
    iintro ⟨%f, H⟩
    iexists f
    rw [owns_whole]; iexact H
  · rw [Phi_pos m c t h]
    iintro H; iexists _; iexact H

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- what it returns of the output's buffer: as handed over where the window is idle and not written back, at
    the output block otherwise, -/
def outPost (c : Dev nD) (t : Fin cfg0.N) : sProp 𝕄 :=
  match cfg0.idle 3 (cfg0.grid.coords t) with
  | true =>
    match (cfg0.win 3).flush t with
    | false => iprop(∃ d, owns (c : Thread nD τ) (ms3 t) fullShare ((dats m 0 c).before 3 t d))
    | true => owns (c : Thread nD τ) (ms3 t) fullShare ((dats m 0 c).after 3 t)
  | false => owns (c : Thread nD τ) (ms3 t) fullShare ((dats m 0 c).after 3 t)

/-- and all it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ outPost m c t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, Phi_succ]
  by_cases h0 : t.val % 8 = 0
  · -- the first step of a row block
    have h7 : ¬t.val % 8 = 7 := by omega
    unfold outPost
    rw [idle3_not t h7, flush3_not t h7, accAt_first m c t h0]
    iintro ⟨HΦ, Ho, ⟨%d0, H0⟩, ⟨%d1, H1⟩, ⟨%d2, H2⟩, H3⟩
    ihave HS := (Phi_any m c t) $$ HΦ
    iapply ((runFirst c (grid0.coords t) _ _ _ _ _ _ _ _ accM (Memref.isWhole_whole _) ((hcondFirst t).mpr h0)
      (fun h => h7 ((hcondLast t).mp h)) (iblk m c 0 t) (iblk m c 1 t)).2 Set.univ _)
    isplitl [H0]; · iexact H0
    isplitl [H1]; · iexact H1
    isplitl [HS]; · iexact HS
    iintro ⟨H0, H1, ⟨%e, HS⟩⟩
    isplitl [HS]
    · unfold owns; iexists _; isplitr
      swap; · iexact HS
      ipureintro; exact first_acc c _ _ _ _ _ _ _ _ _ _ _ _ _ _ _ _
    isplitl [Ho]; · iexact Ho
    isplitl [H0]; · iexact H0
    isplitl [H1]; · iexact H1
    isplitl [H2]; · iexact H2
    iexact H3
  · by_cases h7 : t.val % 8 = 7
    · -- the last step of a row block
      unfold outPost
      rw [idle3_last t h7, after0_3]
      unfold outAt
      rw [accAt_next m c t h0, Phi_pos m c t (fun e => h0 (by rw [e]))]
      iintro ⟨HΦ, Ho, ⟨%d0, H0⟩, ⟨%d1, H1⟩, ⟨%d2, H2⟩, ⟨%d3, H3⟩⟩
      iapply ((runLast c (grid0.coords t) _ _ _ _ _ _ _ _ accM (Memref.isWhole_whole _) (fun h => h0 ((hcondFirst t).mp h))
        ((hcondLast t).mpr h7) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HΦ]; · iexact HΦ
      iintro ⟨H0, H1, H2, ⟨%e3, H3⟩, ⟨%e, HS⟩⟩
      isplitl [HS]
      · unfold owns; iexists _; isplitr
        swap; · iexact HS
        ipureintro; exact last_acc c _ _ _ _ _ _ _ _ _ _ _ _ _ _ _ _ _ _
      isplitl [Ho]; · iexact Ho
      isplitl [H0]; · iexact H0
      isplitl [H1]; · iexact H1
      isplitl [H2]; · iexact H2
      unfold owns; iexists _; isplitr
      swap; · iexact H3
      ipureintro; exact last_out c _ _ _ _ _ _ _ _ _ _ _ _ _ _ _ _ _ _
    · -- a middle step
      unfold outPost
      rw [idle3_not t h7, flush3_not t h7, accAt_next m c t h0, Phi_pos m c t (fun e => h0 (by rw [e]))]
      iintro ⟨HΦ, Ho, ⟨%d0, H0⟩, ⟨%d1, H1⟩, ⟨%d2, H2⟩, H3⟩
      iapply ((runMid c (grid0.coords t) _ _ _ _ _ _ _ _ accM (Memref.isWhole_whole _) (fun h => h0 ((hcondFirst t).mp h))
        (fun h => h7 ((hcondLast t).mp h)) (iblk m c 0 t) (iblk m c 1 t) _).2 Set.univ _)
      isplitl [H0]; · iexact H0
      isplitl [H1]; · iexact H1
      isplitl [HΦ]; · iexact HΦ
      iintro ⟨H0, H1, ⟨%e, HS⟩⟩
      isplitl [HS]
      · unfold owns; iexists _; isplitr
        swap; · iexact HS
        ipureintro; exact mid_acc c _ _ _ _ _ _ _ _ _ _ _ _ _ _ _ _ _
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Main.lean ====
/-
  The launch: the program as a kernel region followed by five host operations.

  The program is the region (the 16 x 8 grid of the body) and then the host's sum of the output column,
  its absolute value and the division by 16.  The region is entered holding every unscoped buffer at its
  launch contents.  The input array is staged by two windows, so its buffer is split in two halves, one
  per window; both windows only read, and at the region's exit the halves are joined again at the same
  contents.  The P array goes in whole and comes back unchanged; the output array comes back at what the
  write-backs left.  The other five buffers bypass the region.  After the region the host operations run
  over all the unscoped buffers, the output array now at its final contents.
-/
import proofs.«118014_j1614907703898_2_alg».proof.Proof.K.Body
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-- The certificate's algebra is the pipeline library's alone. -/
abbrev EP : Emb (UR sig nD τ) (MT nD τ sig Unit (Elt F) ℕ (UR sig nD τ) ℕ) := emb₁

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-! ## The unscoped buffers, one by one -/

/-- The arrays the four windows stage are three buffers: P, the input (twice), the output. -/
theorem arr_image : Finset.univ.image (Pipeline.arrRef spec0) = {main_arg1, main_arg0, main_v0} := by decide

theorem arr_sub : ({main_arg1, main_arg0, main_v0} : Finset (Ref sig .tc)) ⊆ Finset.univ.filter fun b : Ref sig .tc => ¬ b.isScoped := by decide

/-- A core's unscoped buffers at contents W: P's, the input's, the output's, and the five that no window stages. -/
theorem bufs_eq (c : Dev nD) (W : (b : Ref sig .tc) → Buf (Elt F) ((c : Thread nD τ).loc b)) :
    (unscopedBufs c W : sProp 𝕄)
      = iprop(((((c : Thread nD τ).loc main_arg1) ↦{fullShare} W main_arg1) ∗ (((c : Thread nD τ).loc main_arg0) ↦{fullShare} W main_arg0)
          ∗ (((c : Thread nD τ).loc main_v0) ↦{fullShare} W main_v0)) ∗ Pipeline.unscopedRest spec0 c W) := by
  unfold unscopedBufs Pipeline.unscopedRest
  rw [arr_image, bigSep_sdiff_split arr_sub, bigSep_insert (by decide), bigSep_insert (by decide), bigSep_singleton]
  rfl

/-- The proof data's arrays at contents G, window by window, each at its share. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg1) ↦{fullShare} G 0) ∗ (((c : Thread nD τ).loc main_arg0) ↦{fullShare.left} G 1)
          ∗ (((c : Thread nD τ).loc main_arg0) ↦{fullShare.right} G 2) ∗ (((c : Thread nD τ).loc main_v0) ↦{fullShare} G 3)) := by
  unfold Dat.arrays
  rw [bigSep_W0]
  simp only [(arr_whole0 0).set_eq_univ, (arr_whole0 1).set_eq_univ, (arr_whole0 2).set_eq_univ, (arr_whole0 3).set_eq_univ]
  rfl

/-- The input arrays are never written: they end as they were found. -/
theorem arrAt_arg1 (c : Dev nD) (n : ℕ) : (dats m 0 c).arrAt 0 n = V m c main_arg1 := ((dats m 0 c).arrAt_in 0 rfl n).trans (A_eq m c 0)
theorem arrAt_arg0 (c : Dev nD) (n : ℕ) : (dats m 0 c).arrAt 1 n = V m c main_arg0 := ((dats m 0 c).arrAt_in 1 rfl n).trans (A_eq m c 1)
theorem arrAt_arg0' (c : Dev nD) (n : ℕ) : (dats m 0 c).arrAt 2 n = V m c main_arg0 := ((dats m 0 c).arrAt_in 2 rfl n).trans (A_eq m c 2)

/-! ## The host operations after the region -/

/-- The output array after the region: what the sixteen write-backs left. -/
abbrev outFinal (c : Dev nD) : main_v0.ty.Contents (Elt F) := (dats m 0 c).arrAt 3 cfg0.N

/-- A core's buffers at launch, as a valuation, -/
abbrev V₀ (c : Dev nD) : Valuation τ sig (Elt F) := fun b => m ((c : Dev nD), b)
/-- and when the region is left: the output array at its final contents, every other buffer as launched. -/
def exitVal (c : Dev nD) : Valuation τ sig (Elt F) := (StableHlo.nullary main_v0 (outFinal m c) : HloOp τ sig (Elt F)).result (V₀ m c)

theorem exitVal_v0 (c : Dev nD) : exitVal m c main_v0 = outFinal m c := StableHlo.nullary_result _ _ _ _

theorem exitVal_of_ne (c : Dev nD) (b : Ref sig .tc) (h : b ≠ main_v0) : exitVal m c b = V₀ m c b :=
  (StableHlo.nullary main_v0 (outFinal m c) : HloOp τ sig (Elt F)).result_of_not_mem (V₀ m c) (by
    simp only [StableHlo.nullary_writes, Finset.mem_singleton]; exact StableHlo.devRef_ne_of_ne h)

/-- The five buffers no window stages hold at the region's exit what they held at its entry. -/
theorem rest_exit (c : Dev nD) :
    (Pipeline.unscopedRest spec0 c (fun b => exitVal m c b) : sProp 𝕄) = Pipeline.unscopedRest spec0 c (V m c) := by
  rw [unscopedRest0_eq, unscopedRest0_eq, exitVal_of_ne m c main_cst (by decide), exitVal_of_ne m c main_v1 (by decide),
    exitVal_of_ne m c main_v2 (by decide), exitVal_of_ne m c main_cst_0 (by decide), exitVal_of_ne m c main_v3 (by decide)]

/-- The TensorCore's unscoped references as device buffers: the set the host operations run within. -/
def hostRefs : Finset (DevRef τ sig) := (StableHlo.tcRefs τ sig).filter fun b => ¬ b.isScoped

omit [FloatOps F] in
theorem bufs_held (c : Dev nD) (W : Valuation τ sig (Elt F)) :
    (unscopedBufs c (fun b => W b) : sProp 𝕄) = StableHlo.held (c : Thread nD τ) hostRefs W := by
  unfold unscopedBufs StableHlo.held hostRefs StableHlo.tcRefs
  rw [Finset.filter_map, bigSep_map]
  rfl

omit [FloatOps F] in
theorem sub_hostRefs (op : HloOp τ sig (Elt F)) (h : op.bufs ⊆ StableHlo.tcRefs τ sig) : op.bufs ⊆ hostRefs := fun b hb =>
  Finset.mem_filter.mpr ⟨h hb, fun h' => Bool.false_ne_true ((op.no_scoped b hb).symm.trans h')⟩

/-- What rides beside the buffers: the core owes nothing. -/
abbrev R (c : Dev nD) : sProp 𝕄 := iprop(∃ W, owes (c : Thread nD τ) (0 : CellTallies nD τ sig Unit) W)

/-- THE HOST SEGMENT: the five operations over the unscoped buffers as the region left them. -/
def seg1 : Pipeline.HostSeg (Name := ℕ) (U := UR sig nD τ) (pcfgs (F := F)) defs₀ 𝒱₀ L lv :=
  Pipeline.HostSeg.ofOps _ _ _ _ _ hostRefs hostOps1 (fun op h => sub_hostRefs op ((List.forall_iff_forall_mem.mp hostOps1_sub) op h))
    (by intro _ h; (repeat (cases h with | head => rfl | tail _ h => ?_)); exact nomatch h) (exitVal m) R

/-! ## The region -/

-- unification against the library's statements over the pinned configuration unfolds plain definitions in a metavariable's type
set_option backward.isDefEq.respectTransparency.types false in
/-- THE REGION: entered from the launch holdings, left with the unscoped buffers at the exit valuation. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(unscopedBufs c (V m c) ∗ R c)
  post c := iprop(StableHlo.held (c : Thread nD τ) hostRefs (exitVal m c) ∗ R c)
  X _ := iprop(emp)
  Y _ := iprop(emp)
  Z c := Pipeline.unscopedRest spec0 c (V m c)
  hentry c := by
    rw [bufs_eq c (V m c), arrays_eq m c]
    iintro ⟨⟨⟨⟨H1, H0, Hv⟩, Hrest⟩, HO⟩, -, -⟩
    ihave H0' := (pointsTo_share (PosShare.mem_left_op_right fullShare)).1 $$ H0
    icases H0' with ⟨H0l, H0r⟩
    imodintro
    isplitl [H1 H0l H0r Hv]
    · isplitl [H1]; · iexact H1
      isplitl [H0l]; · iexact H0l
      isplitl [H0r]; · iexact H0r
      iexact Hv
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [Phi_zero m c 0 rfl]
    iintro ⟨-, -, Hr⟩; iexact Hr
  hout c := by
    rw [Pipeline.ownSems0_none, show (dats m 0 c).Φ (Fin.last cfg0.N) = owns (c : Thread nD τ) accM fullShare (accAt m c 127 (by decide)) from rfl,
      owns_whole, scopedRest0_eq]
    iintro H
    isplitr; · iempintro
    isplitr; · iempintro
    iexists _; iexact H
  hexit c := by
    rw [arrays_eq m c, arrAt_arg1, arrAt_arg0, arrAt_arg0', ← bufs_held, bufs_eq c (fun b => exitVal m c b)]
    iintro ⟨⟨H1, H0l, H0r, Hv⟩, HO, -, HZ⟩
    ihave H0 := (pointsTo_share (PosShare.mem_left_op_right fullShare)).2 $$ [H0l H0r]
    · isplitl [H0l] <;> iassumption
    imodintro
    isplitr [HO]
    · isplitr [HZ]
      · isplitl [H1]; · rw [exitVal_of_ne m c main_arg1 (by decide)]; iexact H1
        isplitl [H0]; · rw [exitVal_of_ne m c main_arg0 (by decide)]; iexact H0
        rw [exitVal_v0]; iexact Hv
      · rw [rest_exit]; iexact HZ
    · unfold Pipeline.Dat.owesAt Pipeline.owesWithin
      icases HO with ⟨%W, -, HO⟩; iexists W; iexact HO

/-! ## The run -/

/-- A core's buffers when the program returns: the five host operations applied to the exit valuation. -/
abbrev finalVal (c : Dev nD) : Valuation τ sig (Elt F) :=
  StableHlo.after (StableHlo.nullary main_v0 (outFinal m c) :: hostOps1) (V₀ m c)

theorem finalVal_eq (c : Dev nD) : finalVal m c = StableHlo.after hostOps1 (exitVal m c) := rfl

/-- The host operations write neither argument. -/
theorem finalVal_arg0 (c : Dev nD) : finalVal m c main_arg0 = m ((c : Thread nD τ).loc main_arg0) := by
  unfold finalVal; after_results
theorem finalVal_arg1 (c : Dev nD) : finalVal m c main_arg1 = m ((c : Thread nD τ).loc main_arg1) := by
  unfold finalVal; after_results

/-- The physical post: the result buffer at the host operations' value, both arguments as launched. -/
def QC : PUnit × MemSt nD τ sig (Elt F) → Prop := fun r => ∀ c : Dev nD,
  r.2.mem ((c : Thread nD τ).loc main_v3) = finalVal m c main_v3
    ∧ r.2.mem ((c : Thread nD τ).loc main_arg0) = m ((c : Thread nD τ).loc main_arg0)
    ∧ r.2.mem ((c : Thread nD τ).loc main_arg1) = m ((c : Thread nD τ).loc main_arg1)

/-- The program as the list of the two segments. -/
abbrev segs : List (Pipeline.Seg (pcfgs (F := F)) adm (dats m) () defs₀ 𝒱₀ L lv) := [.region (reg0 m), .host (seg1 m)]

/-- The launch element: the pipeline library's at the staging cells. -/
def u₀ : UR sig nD τ := initOf (Pipeline.cells cfgs cellOf_inj) (Pipeline.launchToks cfgs cellOf_inj)

set_option backward.isDefEq.respectTransparency.types false in
/-- From any memory with zero counters every weakly fair execution of the program terminates, nothing faulting,
    with the result at the host operations' value of the output array the region left, and both arguments unchanged. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      have h : (ownU u₀ : sProp 𝕄) ⊢ BI.own (EP (F := F) (initOf (Pipeline.cells (Pipeline.pin (pcfgs (F := F)) adm) cellOf_inj)
          (Pipeline.launchToks (Pipeline.pin (pcfgs (F := F)) adm) cellOf_inj))) := Entails.of_eq rfl
      iintro Hu
      ihave H := (h) $$ Hu
      imodintro
      isplitl [H]; · iexact H
      iapply (show (BI.emp : sProp 𝕄) ⊢ bigSep Finset.univ (fun _ : Dev nD => (BI.emp : sProp 𝕄)) from by rw [BI.bigSep_emp_const])
      iempintro)
    (T₀ := fun c => iprop(unscopedBufs c (V m c) ∗ R c)) (Tₙ := fun c => StableHlo.held (c : Thread nD τ) hostRefs (finalVal m c))
    (hch := ⟨fun _ => .rfl, fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => s.mem ((c : Thread nD τ).loc main_v3) = finalVal m c main_v3
      ∧ s.mem ((c : Thread nD τ).loc main_arg0) = m ((c : Thread nD τ).loc main_arg0)
      ∧ s.mem ((c : Thread nD τ).loc main_arg1) = m ((c : Thread nD τ).loc main_arg1))
    (hfin := fun c s' => by
      rw [← bufs_held, bufs_eq c (fun b => finalVal m c b), unscopedRest0_eq]
      iintro ⟨⟨⟨H1, H0, -⟩, -, -, -, -, H3⟩, HSI⟩
      icombine HSI H1 gives %h1
      icombine HSI H0 gives %h0
      icombine HSI H3 gives %h3
      imodintro
      isplitr
      · ipureintro
        exact ⟨Buf.eq_of_forall_mem_univ h3, (Buf.eq_of_forall_mem_univ h0).trans (finalVal_arg0 m c),
          (Buf.eq_of_forall_mem_univ h1).trans (finalVal_arg1 m c)⟩
      iexact HSI)
    (hQ := fun _ h => h)

/-- THE FRAME: the program runs to the end, faults nowhere, and leaves both arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1, (h c).2.2⟩) (run_main m ρ)

end Cert.Kernel.Hand

end
-- ==== Proof.KI.Runs.lean ====
/-
  The kernel body, run once per kind of grid step.

  The grid is 16 row blocks by 8 column blocks of P, walked row block by row block; within a row block
  the second coordinate k runs 0 … 7.  The body zeroes the accumulator when k = 0, adds this step's
  1024 x 2048 by 2048 x 16 product to it at every step, and when k = 7 multiplies the accumulator by the
  row block of the input, sums each row's sixteen products and stores the 1024 x 1 column.  So there are
  three kinds of step: the first of a row block (zero, accumulate), a middle one (accumulate), the last
  (accumulate, reduce and store).  Each run below is the body's triple on arbitrary whole staging
  buffers, the two branch conditions decided by the step's kind; what the stores leave in the
  accumulator and in the output block is found by the run as a list of written pieces.
-/
import proofs.«118014_j1614907703898_2_alg».proof.Proof.Gen.KernelIdeal.Launch
import proofs.«118014_j1614907703898_2_alg».proof.Proof.Gen.KernelIdeal.Skeleton
import proofs.«118014_j1614907703898_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal Cert.KernelIdeal.Gen

/-! ## The two branch conditions, decided over the grid -/

/-- The body's first condition, "k = 0", as the body computes it from the grid coordinates. -/
abbrev condFirst (i : grid0.Coords) : Prop :=
  (Scalar.cmpi .ne (Scalar.extui (Scalar.cmpi .eq (BitVec.ofNat 32 (i 1).val) 0#32)) 0#32) = 1#1
/-- The body's second condition, "k = 7". -/
abbrev condLast (i : grid0.Coords) : Prop := k0_cond2 i = 1#1

/-- Point t of the grid has k = t mod 8: the first condition holds exactly at the multiples of 8, -/
theorem hcondFirst : ∀ t : Fin cfg0.N, condFirst (grid0.coords t) ↔ t.val % 8 = 0 :=
  (by decide +kernel : ∀ t : Fin grid0.N, condFirst (grid0.coords t) ↔ t.val % 8 = 0)
/-- and the second exactly at the points that are 7 modulo 8. -/
theorem hcondLast : ∀ t : Fin cfg0.N, condLast (grid0.coords t) ↔ t.val % 8 = 7 :=
  (by decide +kernel : ∀ t : Fin grid0.N, condLast (grid0.coords t) ↔ t.val % 8 = 7)

/-! ## The three runs -/

set_option maxHeartbeats 1000000 in
/-- FIRST step of a row block (k = 0): the accumulator, whatever it held, is zeroed and then holds zero
    plus this step's product. The P block and the input's row block for the product are read and left as
    they were; the other two buffers are not touched. -/
noncomputable def runFirst (c : Dev nD) (i : grid0.Coords)
    (arg2 : Memref sig .tc .vmem S1024x2048 .f32) (harg2 : arg2.IsWhole) (arg3 : Memref sig .tc .vmem S2048x16 .f32) (harg3 : arg3.IsWhole)
    (arg4 : Memref sig .tc .vmem S1024x16 .f32) (harg4 : arg4.IsWhole) (arg5 : Memref sig .tc .vmem S1024x1 .f32) (harg5 : arg5.IsWhole)
    (arg6 : Memref sig .tc .vmem S1024x16 .f32) (harg6 : arg6.IsWhole) (h0 : condFirst i) (h7 : ¬condLast i)
    (x0 : Vec F S1024x2048 .f32) (x1 : Vec F S2048x16 .f32) :
    { LS : List (View.Piece (Elt F) S1024x16 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ K ⟨⟩))
          ⊢ wp frame (wpE (defs₀ (F := F)) Variants.none c none) E (cc0_kernel i arg2 harg2 arg3 harg3 arg4 harg4 arg5 harg5 arg6 harg6) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- MIDDLE step (0 < k < 7): the accumulator, holding xs, ends holding xs plus this step's product. -/
noncomputable def runMid (c : Dev nD) (i : grid0.Coords)
    (arg2 : Memref sig .tc .vmem S1024x2048 .f32) (harg2 : arg2.IsWhole) (arg3 : Memref sig .tc .vmem S2048x16 .f32) (harg3 : arg3.IsWhole)
    (arg4 : Memref sig .tc .vmem S1024x16 .f32) (harg4 : arg4.IsWhole) (arg5 : Memref sig .tc .vmem S1024x1 .f32) (harg5 : arg5.IsWhole)
    (arg6 : Memref sig .tc .vmem S1024x16 .f32) (harg6 : arg6.IsWhole) (h0 : ¬condFirst i) (h7 : ¬condLast i)
    (x0 : Vec F S1024x2048 .f32) (x1 : Vec F S2048x16 .f32) (xs : Vec F S1024x16 .f32) :
    { LS : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ K ⟨⟩))
          ⊢ wp frame (wpE (defs₀ (F := F)) Variants.none c none) E (cc0_kernel i arg2 harg2 arg3 harg3 arg4 harg4 arg5 harg5 arg6 harg6) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- LAST step of a row block (k = 7): the accumulator ends holding xs plus this step's product, and the
    output block, whatever it held, the row sums of the input's row block times that. -/
noncomputable def runLast (c : Dev nD) (i : grid0.Coords)
    (arg2 : Memref sig .tc .vmem S1024x2048 .f32) (harg2 : arg2.IsWhole) (arg3 : Memref sig .tc .vmem S2048x16 .f32) (harg3 : arg3.IsWhole)
    (arg4 : Memref sig .tc .vmem S1024x16 .f32) (harg4 : arg4.IsWhole) (arg5 : Memref sig .tc .vmem S1024x1 .f32) (harg5 : arg5.IsWhole)
    (arg6 : Memref sig .tc .vmem S1024x16 .f32) (harg6 : arg6.IsWhole) (h0 : ¬condFirst i) (h7 : condLast i)
    (x0 : Vec F S1024x2048 .f32) (x1 : Vec F S2048x16 .f32) (x2 : Vec F S1024x16 .f32) (xs : Vec F S1024x16 .f32) :
    Σ' (LO : List (View.Piece (Elt F) S1024x1 .f32)), { LS : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0_kernel i arg2 harg2 arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d5, %f5, -, H5⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact h0 | exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact HS

end Cert.KernelIdeal.Hand

end
-- ==== Proof.KI.Pieces.lean ====
/-
  What each kind of grid step leaves behind, as values.

  Every store of the body writes a whole buffer through the rectangle at offset zero of the buffer's own
  size, and every load reads a whole buffer the same way.  So the last store into a buffer decides its
  contents, and a load after a store reads that store's value.  Read this way the three runs leave:
  after a first step the accumulator at "zero plus the product", after a middle or a last step at "what it
  held plus the product", and after a last step the output block at the row sums of the input's row
  block times the accumulator just stored.
-/
import proofs.«118014_j1614907703898_2_alg».proof.Proof.KI.Runs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal Cert.KernelIdeal.Gen

/-- The offsets of every access of the body: zero on both axes. -/
theorem off_zero : (![0, 0] : Fin 2 → Nat) = fun _ => 0 := by
  funext a; match a with | ⟨0, _⟩ => rfl | ⟨1, _⟩ => rfl

/-- After a first step the accumulator holds the product added to the zeros just stored. -/
theorem first_acc (c : Dev nD) (i : grid0.Coords)
    (arg2 : Memref sig .tc .vmem S1024x2048 .f32) (harg2 : arg2.IsWhole) (arg3 : Memref sig .tc .vmem S2048x16 .f32) (harg3 : arg3.IsWhole)
    (arg4 : Memref sig .tc .vmem S1024x16 .f32) (harg4 : arg4.IsWhole) (arg5 : Memref sig .tc .vmem S1024x1 .f32) (harg5 : arg5.IsWhole)
    (arg6 : Memref sig .tc .vmem S1024x16 .f32) (harg6 : arg6.IsWhole) (h0 : condFirst i) (h7 : ¬condLast i)
    (x0 : Vec F S1024x2048 .f32) (x1 : Vec F S2048x16 .f32) (f : arg6.view.ty.Contents (Elt F)) :
    arg6.view.read (Elt F) (arg6.view.writes (Elt F) f (runFirst c i arg2 harg2 arg3 harg3 arg4 harg4 arg5 harg5 arg6 harg6 h0 h7 x0 x1).1)
      = k0_pay2 x0 x1 (k0_pay1 (F := F)) := by
  rw [View.read_writes_eq_canon _ _ _ (View.cover_of_tiledL _ S1024x16.size (by sl_kernel_rfl))]
  unfold runFirst; dsimp only; sl_unfold_words
  rw [View.canon_cons_unit_zero off_zero]
  simp only [View.readAt_eq_ld, harg2.read_unread, harg3.read_unread, View.ld_unit_zero (S := S1024x2048) off_zero,
    View.ld_unit_zero (S := S2048x16) off_zero, View.readCov_unit_zero (S := S1024x16) _ off_zero]

/-- After a middle step the accumulator holds the product added to what it held. -/
theorem mid_acc (c : Dev nD) (i : grid0.Coords)
    (arg2 : Memref sig .tc .vmem S1024x2048 .f32) (harg2 : arg2.IsWhole) (arg3 : Memref sig .tc .vmem S2048x16 .f32) (harg3 : arg3.IsWhole)
    (arg4 : Memref sig .tc .vmem S1024x16 .f32) (harg4 : arg4.IsWhole) (arg5 : Memref sig .tc .vmem S1024x1 .f32) (harg5 : arg5.IsWhole)
    (arg6 : Memref sig .tc .vmem S1024x16 .f32) (harg6 : arg6.IsWhole) (h0 : ¬condFirst i) (h7 : ¬condLast i)
    (x0 : Vec F S1024x2048 .f32) (x1 : Vec F S2048x16 .f32) (xs : Vec F S1024x16 .f32) (f : arg6.view.ty.Contents (Elt F)) :
    arg6.view.read (Elt F) (arg6.view.writes (Elt F) f (runMid c i arg2 harg2 arg3 harg3 arg4 harg4 arg5 harg5 arg6 harg6 h0 h7 x0 x1 xs).1)
      = k0_pay2 x0 x1 xs := by
  rw [View.read_writes_eq_canon _ _ _ (View.cover_of_tiledL _ S1024x16.size (by sl_kernel_rfl))]
  unfold runMid; dsimp only; sl_unfold_words
  rw [View.canon_cons_unit_zero off_zero]
  simp only [View.readAt_eq_ld, harg2.read_unread, harg3.read_unread, harg6.read_unread, View.ld_unit_zero (S := S1024x2048) off_zero,
    View.ld_unit_zero (S := S2048x16) off_zero, View.ld_unit_zero (S := S1024x16) off_zero]

/-- After a last step the accumulator holds the product added to what it held, -/
theorem last_acc (c : Dev nD) (i : grid0.Coords)
    (arg2 : Memref sig .tc .vmem S1024x2048 .f32) (harg2 : arg2.IsWhole) (arg3 : Memref sig .tc .vmem S2048x16 .f32) (harg3 : arg3.IsWhole)
    (arg4 : Memref sig .tc .vmem S1024x16 .f32) (harg4 : arg4.IsWhole) (arg5 : Memref sig .tc .vmem S1024x1 .f32) (harg5 : arg5.IsWhole)
    (arg6 : Memref sig .tc .vmem S1024x16 .f32) (harg6 : arg6.IsWhole) (h0 : ¬condFirst i) (h7 : condLast i)
    (x0 : Vec F S1024x2048 .f32) (x1 : Vec F S2048x16 .f32) (x2 xs : Vec F S1024x16 .f32) (f : arg6.view.ty.Contents (Elt F)) :
    arg6.view.read (Elt F) (arg6.view.writes (Elt F) f (runLast c i arg2 harg2 arg3 harg3 arg4 harg4 arg5 harg5 arg6 harg6 h0 h7 x0 x1 x2 xs).2.1)
      = k0_pay2 x0 x1 xs := by
  rw [View.read_writes_eq_canon _ _ _ (View.cover_of_tiledL _ S1024x16.size (by sl_kernel_rfl))]
  unfold runLast; dsimp only; sl_unfold_words
  rw [View.canon_cons_unit_zero off_zero]
  simp only [View.readAt_eq_ld, harg2.read_unread, harg3.read_unread, harg6.read_unread, View.ld_unit_zero (S := S1024x2048) off_zero,
    View.ld_unit_zero (S := S2048x16) off_zero, View.ld_unit_zero (S := S1024x16) off_zero]

/-- and the output block the row sums of the input's row block times that accumulator. -/
theorem last_out (c : Dev nD) (i : grid0.Coords)
    (arg2 : Memref sig .tc .vmem S1024x2048 .f32) (harg2 : arg2.IsWhole) (arg3 : Memref sig .tc .vmem S2048x16 .f32) (harg3 : arg3.IsWhole)
    (arg4 : Memref sig .tc .vmem S1024x16 .f32) (harg4 : arg4.IsWhole) (arg5 : Memref sig .tc .vmem S1024x1 .f32) (harg5 : arg5.IsWhole)
    (arg6 : Memref sig .tc .vmem S1024x16 .f32) (harg6 : arg6.IsWhole) (h0 : ¬condFirst i) (h7 : condLast i)
    (x0 : Vec F S1024x2048 .f32) (x1 : Vec F S2048x16 .f32) (x2 xs : Vec F S1024x16 .f32) (f : arg5.view.ty.Contents (Elt F)) :
    arg5.view.read (Elt F) (arg5.view.writes (Elt F) f (runLast c i arg2 harg2 arg3 harg3 arg4 harg4 arg5 harg5 arg6 harg6 h0 h7 x0 x1 x2 xs).1)
      = k0_pay3 x2 (k0_pay2 x0 x1 xs) := by
  rw [View.read_writes_eq_canon _ _ _ (View.cover_of_tiledL _ S1024x1.size (by sl_kernel_rfl))]
  unfold runLast; dsimp only; sl_unfold_words
  rw [View.canon_cons_unit_zero off_zero]
  simp only [View.readAt_eq_ld, harg2.read_unread, harg3.read_unread, harg4.read_unread, harg6.read_unread,
    View.ld_unit_zero (S := S1024x2048) off_zero, View.ld_unit_zero (S := S2048x16) off_zero, View.ld_unit_zero (S := S1024x16) off_zero,
    View.readCov_unit_zero (S := S1024x16) _ off_zero]

end Cert.KernelIdeal.Hand

end
-- ==== Proof.KI.Data.lean ====
/-
  The pipeline's proof data.

  Window 0 stages the 1024 x 2048 blocks of P, window 1 the 2048 x 16 row blocks of the input that
  multiply them, window 2 the 1024 x 16 row block of the input for the row block's epilogue, window 3 the
  1024 x 1 output block.  Windows 1 and 2 read the SAME array, so each holds half of it.
  At grid point t (row block t / 8, column block k = t mod 8) the accumulator ends holding
      acc(t) = product(t) added to (zero if k = 0, else acc(t - 1)),
  and at k = 7 the output block holds the row sums of (input row block) times acc(t).
  Between points the accumulator's buffer is part of the invariant: before point 0 it holds anything,
  before point t + 1 it holds acc(t).  The output window is idle except at k = 7, where it is written
  back, so its buffer is handed over and taken back untouched at every other point.
-/
import proofs.«118014_j1614907703898_2_alg».proof.Proof.KI.Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ)

/-- A core's buffers when the region is entered: the launch memory (the region is the first line of the program). -/
abbrev V (c : Dev nD) (b : Ref sig .tc) : Buf (Elt F) ((c : Thread nD τ).loc b) := m ((c : Thread nD τ).loc b)

/-- Window w's block at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The accumulator after point n: this point's product added to zero at the first step of a row block, to the
    accumulator after the point before otherwise. -/
def accAt (c : Dev nD) : (n : ℕ) → n < cfg0.N → Vec F S1024x16 .f32
  | 0, hn => k0_pay2 (iblk m c 0 ⟨0, hn⟩) (iblk m c 1 ⟨0, hn⟩) (k0_pay1 (F := F))
  | n + 1, hn =>
    if (n + 1) % 8 = 0 then k0_pay2 (iblk m c 0 ⟨n + 1, hn⟩) (iblk m c 1 ⟨n + 1, hn⟩) (k0_pay1 (F := F))
    else k0_pay2 (iblk m c 0 ⟨n + 1, hn⟩) (iblk m c 1 ⟨n + 1, hn⟩) (accAt c n (Nat.lt_of_succ_lt hn))

theorem accAt_first (c : Dev nD) (t : Fin cfg0.N) (h : t.val % 8 = 0) :
    accAt m c t.val t.isLt = k0_pay2 (iblk m c 0 t) (iblk m c 1 t) (k0_pay1 (F := F)) := by
  obtain ⟨n, hn⟩ := t
  cases n with
  | zero => rfl
  | succ n => exact if_pos h

theorem accAt_next (c : Dev nD) (t : Fin cfg0.N) (h : ¬t.val % 8 = 0) :
    accAt m c t.val t.isLt = k0_pay2 (iblk m c 0 t) (iblk m c 1 t)
      (accAt m c (t.val - 1) (Nat.lt_of_le_of_lt (Nat.sub_le _ _) t.isLt)) := by
  obtain ⟨n, hn⟩ := t
  cases n with
  | zero => exact absurd (Nat.zero_mod _) h
  | succ n => exact if_neg h

/-- The output block a last step stores: the row sums of the input's row block times the accumulator. -/
def outAt (c : Dev nD) (t : Fin cfg0.N) : Vec F S1024x1 .f32 := k0_pay3 (iblk m c 2 t) (accAt m c t.val t.isLt)

/-- The accumulator's buffer, whole. -/
abbrev accM : Memref sig .tc .vmem S1024x16 .f32 := Memref.whole cc0_scratch0

/-- The invariant before point n: the accumulator's buffer at anything before the first point, at the
    accumulator after the point before otherwise. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, h => owns (c : Thread nD τ) accM fullShare (accAt m c n h)

/-- The proof data on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.lt_succ_iff.mp t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input window's current buffer holds its block at every point, fetched there or not: unfetched, the
    block index has not moved since the point before. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- The invariant's two forms. -/
theorem Phi_zero (c : Dev nD) (t : Fin (cfg0.N + 1)) (h : t.val = 0) :
    (dats m 0 c).Φ t = Pipeline.scopedRest (Ix := Unit) (Name := ℕ) (U := UR sig nD τ) (Lvl := ℕ) (Val := Elt F) spec0 c := by
  obtain ⟨n, hn⟩ := t
  cases n with
  | zero => rfl
  | succ n => exact absurd h (Nat.succ_ne_zero n)

theorem Phi_succ (c : Dev nD) (t : Fin cfg0.N) :
    (dats m 0 c).Φ t.succ = owns (c : Thread nD τ) accM fullShare (accAt m c t.val t.isLt) := rfl

theorem Phi_pos (c : Dev nD) (t : Fin cfg0.N) (h : t.val ≠ 0) :
    (dats m 0 c).Φ t.castSucc = owns (c : Thread nD τ) accM fullShare (accAt m c (t.val - 1) (Nat.lt_of_le_of_lt (Nat.sub_le _ _) t.isLt)) := by
  obtain ⟨n, hn⟩ := t
  cases n with
  | zero => exact absurd rfl h
  | succ n => rfl

end Cert.KernelIdeal.Hand

end
-- ==== Proof.KI.Body.lean ====
/-
  The body obligation at a symbolic grid point.

  The point's kind is read off t mod 8.  At every point the two product operands' buffers hold their
  blocks and come back unchanged, and so does the epilogue operand's.  The accumulator enters through the
  invariant (at anything before a first step, at the previous point's accumulator otherwise) and leaves
  at this point's accumulator.  The output's buffer is untouched except at a last step, where it leaves at
  the output block.
-/
import proofs.«118014_j1614907703898_2_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ)

/-- The windows' current staging memrefs at point t, as the pipeline passes them. -/
abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)

/-- The output window is live exactly at the last step of a row block, -/
theorem idle3_last (t : Fin cfg0.N) (h : t.val % 8 = 7) : cfg0.idle 3 (cfg0.grid.coords t) = false := by
  show (!(k0_cond2 (grid0.coords t) == 1#1)) = false
  rw [(hcondLast t).mpr h]; rfl
theorem idle3_not (t : Fin cfg0.N) (h : ¬t.val % 8 = 7) : cfg0.idle 3 (cfg0.grid.coords t) = true := by
  show (!(k0_cond2 (grid0.coords t) == 1#1)) = true
  have hne : ¬k0_cond2 (grid0.coords t) = 1#1 := fun e => h ((hcondLast t).mp e)
  simp [hne]
/-- and is written back exactly there. -/
theorem flush3_not (t : Fin cfg0.N) (h : ¬t.val % 8 = 7) : (cfg0.win 3).flush t = false :=
  Bool.eq_false_iff.mpr fun hf => h ((flush0_3 t).mp hf)

/-- Whatever the invariant before a point holds, it holds the accumulator's buffer at something. -/
theorem Phi_any (c : Dev nD) (t : Fin cfg0.N) :
    (dats m 0 c).Φ t.castSucc ⊢ (iprop(∃ d, owns (c : Thread nD τ) accM fullShare d) : sProp 𝕄) := by
  by_cases h : t.val = 0
  · rw [Phi_zero m c t.castSucc h, scopedRest0_eq]
    iintro ⟨%f, H⟩
    iexists f
    rw [owns_whole]; iexact H
  · rw [Phi_pos m c t h]
    iintro H; iexists _; iexact H

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- what it returns of the output's buffer: as handed over where the window is idle and not written back, at
    the output block otherwise, -/
def outPost (c : Dev nD) (t : Fin cfg0.N) : sProp 𝕄 :=
  match cfg0.idle 3 (cfg0.grid.coords t) with
  | true =>
    match (cfg0.win 3).flush t with
    | false => iprop(∃ d, owns (c : Thread nD τ) (ms3 t) fullShare ((dats m 0 c).before 3 t d))
    | true => owns (c : Thread nD τ) (ms3 t) fullShare ((dats m 0 c).after 3 t)
  | false => owns (c : Thread nD τ) (ms3 t) fullShare ((dats m 0 c).after 3 t)

/-- and all it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ outPost m c t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, Phi_succ]
  by_cases h0 : t.val % 8 = 0
  · -- the first step of a row block
    have h7 : ¬t.val % 8 = 7 := by omega
    unfold outPost
    rw [idle3_not t h7, flush3_not t h7, accAt_first m c t h0]
    iintro ⟨HΦ, Ho, ⟨%d0, H0⟩, ⟨%d1, H1⟩, ⟨%d2, H2⟩, H3⟩
    ihave HS := (Phi_any m c t) $$ HΦ
    iapply ((runFirst c (grid0.coords t) _ _ _ _ _ _ _ _ accM (Memref.isWhole_whole _) ((hcondFirst t).mpr h0)
      (fun h => h7 ((hcondLast t).mp h)) (iblk m c 0 t) (iblk m c 1 t)).2 Set.univ _)
    isplitl [H0]; · iexact H0
    isplitl [H1]; · iexact H1
    isplitl [HS]; · iexact HS
    iintro ⟨H0, H1, ⟨%e, HS⟩⟩
    isplitl [HS]
    · unfold owns; iexists _; isplitr
      swap; · iexact HS
      ipureintro; exact first_acc c _ _ _ _ _ _ _ _ _ _ _ _ _ _ _ _
    isplitl [Ho]; · iexact Ho
    isplitl [H0]; · iexact H0
    isplitl [H1]; · iexact H1
    isplitl [H2]; · iexact H2
    iexact H3
  · by_cases h7 : t.val % 8 = 7
    · -- the last step of a row block
      unfold outPost
      rw [idle3_last t h7, after0_3]
      unfold outAt
      rw [accAt_next m c t h0, Phi_pos m c t (fun e => h0 (by rw [e]))]
      iintro ⟨HΦ, Ho, ⟨%d0, H0⟩, ⟨%d1, H1⟩, ⟨%d2, H2⟩, ⟨%d3, H3⟩⟩
      iapply ((runLast c (grid0.coords t) _ _ _ _ _ _ _ _ accM (Memref.isWhole_whole _) (fun h => h0 ((hcondFirst t).mp h))
        ((hcondLast t).mpr h7) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HΦ]; · iexact HΦ
      iintro ⟨H0, H1, H2, ⟨%e3, H3⟩, ⟨%e, HS⟩⟩
      isplitl [HS]
      · unfold owns; iexists _; isplitr
        swap; · iexact HS
        ipureintro; exact last_acc c _ _ _ _ _ _ _ _ _ _ _ _ _ _ _ _ _ _
      isplitl [Ho]; · iexact Ho
      isplitl [H0]; · iexact H0
      isplitl [H1]; · iexact H1
      isplitl [H2]; · iexact H2
      unfold owns; iexists _; isplitr
      swap; · iexact H3
      ipureintro; exact last_out c _ _ _ _ _ _ _ _ _ _ _ _ _ _ _ _ _ _
    · -- a middle step
      unfold outPost
      rw [idle3_not t h7, flush3_not t h7, accAt_next m c t h0, Phi_pos m c t (fun e => h0 (by rw [e]))]
      iintro ⟨HΦ, Ho, ⟨%d0, H0⟩, ⟨%d1, H1⟩, ⟨%d2, H2⟩, H3⟩
      iapply ((runMid c (grid0.coords t) _ _ _ _ _ _ _ _ accM (Memref.isWhole_whole _) (fun h => h0 ((hcondFirst t).mp h))
        (fun h => h7 ((hcondLast t).mp h)) (iblk m c 0 t) (iblk m c 1 t) _).2 Set.univ _)
      isplitl [H0]; · iexact H0
      isplitl [H1]; · iexact H1
      isplitl [HΦ]; · iexact HΦ
      iintro ⟨H0, H1, ⟨%e, HS⟩⟩
      isplitl [HS]
      · unfold owns; iexists _; isplitr
        swap; · iexact HS
        ipureintro; exact mid_acc c _ _ _ _ _ _ _ _ _ _ _ _ _ _ _ _ _
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Main.lean ====
/-
  The launch: the program as a kernel region followed by five host operations.

  The program is the region (the 16 x 8 grid of the body) and then the host's sum of the output column,
  its absolute value and the division by 16.  The region is entered holding every unscoped buffer at its
  launch contents.  The input array is staged by two windows, so its buffer is split in two halves, one
  per window; both windows only read, and at the region's exit the halves are joined again at the same
  contents.  The P array goes in whole and comes back unchanged; the output array comes back at what the
  write-backs left.  The other five buffers bypass the region.  After the region the host operations run
  over all the unscoped buffers, the output array now at its final contents.
-/
import proofs.«118014_j1614907703898_2_alg».proof.Proof.KI.Body
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-- The certificate's algebra is the pipeline library's alone. -/
abbrev EP : Emb (UR sig nD τ) (MT nD τ sig Unit (Elt F) ℕ (UR sig nD τ) ℕ) := emb₁

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-! ## The unscoped buffers, one by one -/

/-- The arrays the four windows stage are three buffers: P, the input (twice), the output. -/
theorem arr_image : Finset.univ.image (Pipeline.arrRef spec0) = {main_arg1, main_arg0, main_v0} := by decide

theorem arr_sub : ({main_arg1, main_arg0, main_v0} : Finset (Ref sig .tc)) ⊆ Finset.univ.filter fun b : Ref sig .tc => ¬ b.isScoped := by decide

/-- A core's unscoped buffers at contents W: P's, the input's, the output's, and the five that no window stages. -/
theorem bufs_eq (c : Dev nD) (W : (b : Ref sig .tc) → Buf (Elt F) ((c : Thread nD τ).loc b)) :
    (unscopedBufs c W : sProp 𝕄)
      = iprop(((((c : Thread nD τ).loc main_arg1) ↦{fullShare} W main_arg1) ∗ (((c : Thread nD τ).loc main_arg0) ↦{fullShare} W main_arg0)
          ∗ (((c : Thread nD τ).loc main_v0) ↦{fullShare} W main_v0)) ∗ Pipeline.unscopedRest spec0 c W) := by
  unfold unscopedBufs Pipeline.unscopedRest
  rw [arr_image, bigSep_sdiff_split arr_sub, bigSep_insert (by decide), bigSep_insert (by decide), bigSep_singleton]
  rfl

/-- The proof data's arrays at contents G, window by window, each at its share. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg1) ↦{fullShare} G 0) ∗ (((c : Thread nD τ).loc main_arg0) ↦{fullShare.left} G 1)
          ∗ (((c : Thread nD τ).loc main_arg0) ↦{fullShare.right} G 2) ∗ (((c : Thread nD τ).loc main_v0) ↦{fullShare} G 3)) := by
  unfold Dat.arrays
  rw [bigSep_W0]
  simp only [(arr_whole0 0).set_eq_univ, (arr_whole0 1).set_eq_univ, (arr_whole0 2).set_eq_univ, (arr_whole0 3).set_eq_univ]
  rfl

/-- The input arrays are never written: they end as they were found. -/
theorem arrAt_arg1 (c : Dev nD) (n : ℕ) : (dats m 0 c).arrAt 0 n = V m c main_arg1 := ((dats m 0 c).arrAt_in 0 rfl n).trans (A_eq m c 0)
theorem arrAt_arg0 (c : Dev nD) (n : ℕ) : (dats m 0 c).arrAt 1 n = V m c main_arg0 := ((dats m 0 c).arrAt_in 1 rfl n).trans (A_eq m c 1)
theorem arrAt_arg0' (c : Dev nD) (n : ℕ) : (dats m 0 c).arrAt 2 n = V m c main_arg0 := ((dats m 0 c).arrAt_in 2 rfl n).trans (A_eq m c 2)

/-! ## The host operations after the region -/

/-- The output array after the region: what the sixteen write-backs left. -/
abbrev outFinal (c : Dev nD) : main_v0.ty.Contents (Elt F) := (dats m 0 c).arrAt 3 cfg0.N

/-- A core's buffers at launch, as a valuation, -/
abbrev V₀ (c : Dev nD) : Valuation τ sig (Elt F) := fun b => m ((c : Dev nD), b)
/-- and when the region is left: the output array at its final contents, every other buffer as launched. -/
def exitVal (c : Dev nD) : Valuation τ sig (Elt F) := (StableHlo.nullary main_v0 (outFinal m c) : HloOp τ sig (Elt F)).result (V₀ m c)

theorem exitVal_v0 (c : Dev nD) : exitVal m c main_v0 = outFinal m c := StableHlo.nullary_result _ _ _ _

theorem exitVal_of_ne (c : Dev nD) (b : Ref sig .tc) (h : b ≠ main_v0) : exitVal m c b = V₀ m c b :=
  (StableHlo.nullary main_v0 (outFinal m c) : HloOp τ sig (Elt F)).result_of_not_mem (V₀ m c) (by
    simp only [StableHlo.nullary_writes, Finset.mem_singleton]; exact StableHlo.devRef_ne_of_ne h)

/-- The five buffers no window stages hold at the region's exit what they held at its entry. -/
theorem rest_exit (c : Dev nD) :
    (Pipeline.unscopedRest spec0 c (fun b => exitVal m c b) : sProp 𝕄) = Pipeline.unscopedRest spec0 c (V m c) := by
  rw [unscopedRest0_eq, unscopedRest0_eq, exitVal_of_ne m c main_cst (by decide), exitVal_of_ne m c main_v1 (by decide),
    exitVal_of_ne m c main_v2 (by decide), exitVal_of_ne m c main_cst_0 (by decide), exitVal_of_ne m c main_v3 (by decide)]

/-- The TensorCore's unscoped references as device buffers: the set the host operations run within. -/
def hostRefs : Finset (DevRef τ sig) := (StableHlo.tcRefs τ sig).filter fun b => ¬ b.isScoped

omit [FloatOps F] in
theorem bufs_held (c : Dev nD) (W : Valuation τ sig (Elt F)) :
    (unscopedBufs c (fun b => W b) : sProp 𝕄) = StableHlo.held (c : Thread nD τ) hostRefs W := by
  unfold unscopedBufs StableHlo.held hostRefs StableHlo.tcRefs
  rw [Finset.filter_map, bigSep_map]
  rfl

omit [FloatOps F] in
theorem sub_hostRefs (op : HloOp τ sig (Elt F)) (h : op.bufs ⊆ StableHlo.tcRefs τ sig) : op.bufs ⊆ hostRefs := fun b hb =>
  Finset.mem_filter.mpr ⟨h hb, fun h' => Bool.false_ne_true ((op.no_scoped b hb).symm.trans h')⟩

/-- What rides beside the buffers: the core owes nothing. -/
abbrev R (c : Dev nD) : sProp 𝕄 := iprop(∃ W, owes (c : Thread nD τ) (0 : CellTallies nD τ sig Unit) W)

/-- THE HOST SEGMENT: the five operations over the unscoped buffers as the region left them. -/
def seg1 : Pipeline.HostSeg (Name := ℕ) (U := UR sig nD τ) (pcfgs (F := F)) defs₀ 𝒱₀ L lv :=
  Pipeline.HostSeg.ofOps _ _ _ _ _ hostRefs hostOps1 (fun op h => sub_hostRefs op ((List.forall_iff_forall_mem.mp hostOps1_sub) op h))
    (by intro _ h; (repeat (cases h with | head => rfl | tail _ h => ?_)); exact nomatch h) (exitVal m) R

/-! ## The region -/

-- unification against the library's statements over the pinned configuration unfolds plain definitions in a metavariable's type
set_option backward.isDefEq.respectTransparency.types false in
/-- THE REGION: entered from the launch holdings, left with the unscoped buffers at the exit valuation. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(unscopedBufs c (V m c) ∗ R c)
  post c := iprop(StableHlo.held (c : Thread nD τ) hostRefs (exitVal m c) ∗ R c)
  X _ := iprop(emp)
  Y _ := iprop(emp)
  Z c := Pipeline.unscopedRest spec0 c (V m c)
  hentry c := by
    rw [bufs_eq c (V m c), arrays_eq m c]
    iintro ⟨⟨⟨⟨H1, H0, Hv⟩, Hrest⟩, HO⟩, -, -⟩
    ihave H0' := (pointsTo_share (PosShare.mem_left_op_right fullShare)).1 $$ H0
    icases H0' with ⟨H0l, H0r⟩
    imodintro
    isplitl [H1 H0l H0r Hv]
    · isplitl [H1]; · iexact H1
      isplitl [H0l]; · iexact H0l
      isplitl [H0r]; · iexact H0r
      iexact Hv
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [Phi_zero m c 0 rfl]
    iintro ⟨-, -, Hr⟩; iexact Hr
  hout c := by
    rw [Pipeline.ownSems0_none, show (dats m 0 c).Φ (Fin.last cfg0.N) = owns (c : Thread nD τ) accM fullShare (accAt m c 127 (by decide)) from rfl,
      owns_whole, scopedRest0_eq]
    iintro H
    isplitr; · iempintro
    isplitr; · iempintro
    iexists _; iexact H
  hexit c := by
    rw [arrays_eq m c, arrAt_arg1, arrAt_arg0, arrAt_arg0', ← bufs_held, bufs_eq c (fun b => exitVal m c b)]
    iintro ⟨⟨H1, H0l, H0r, Hv⟩, HO, -, HZ⟩
    ihave H0 := (pointsTo_share (PosShare.mem_left_op_right fullShare)).2 $$ [H0l H0r]
    · isplitl [H0l] <;> iassumption
    imodintro
    isplitr [HO]
    · isplitr [HZ]
      · isplitl [H1]; · rw [exitVal_of_ne m c main_arg1 (by decide)]; iexact H1
        isplitl [H0]; · rw [exitVal_of_ne m c main_arg0 (by decide)]; iexact H0
        rw [exitVal_v0]; iexact Hv
      · rw [rest_exit]; iexact HZ
    · unfold Pipeline.Dat.owesAt Pipeline.owesWithin
      icases HO with ⟨%W, -, HO⟩; iexists W; iexact HO

/-! ## The run -/

/-- A core's buffers when the program returns: the five host operations applied to the exit valuation. -/
abbrev finalVal (c : Dev nD) : Valuation τ sig (Elt F) :=
  StableHlo.after (StableHlo.nullary main_v0 (outFinal m c) :: hostOps1) (V₀ m c)

theorem finalVal_eq (c : Dev nD) : finalVal m c = StableHlo.after hostOps1 (exitVal m c) := rfl

/-- The host operations write neither argument. -/
theorem finalVal_arg0 (c : Dev nD) : finalVal m c main_arg0 = m ((c : Thread nD τ).loc main_arg0) := by
  unfold finalVal; after_results
theorem finalVal_arg1 (c : Dev nD) : finalVal m c main_arg1 = m ((c : Thread nD τ).loc main_arg1) := by
  unfold finalVal; after_results

/-- The physical post: the result buffer at the host operations' value, both arguments as launched. -/
def QC : PUnit × MemSt nD τ sig (Elt F) → Prop := fun r => ∀ c : Dev nD,
  r.2.mem ((c : Thread nD τ).loc main_v3) = finalVal m c main_v3
    ∧ r.2.mem ((c : Thread nD τ).loc main_arg0) = m ((c : Thread nD τ).loc main_arg0)
    ∧ r.2.mem ((c : Thread nD τ).loc main_arg1) = m ((c : Thread nD τ).loc main_arg1)

/-- The program as the list of the two segments. -/
abbrev segs : List (Pipeline.Seg (pcfgs (F := F)) adm (dats m) () defs₀ 𝒱₀ L lv) := [.region (reg0 m), .host (seg1 m)]

/-- The launch element: the pipeline library's at the staging cells. -/
def u₀ : UR sig nD τ := initOf (Pipeline.cells cfgs cellOf_inj) (Pipeline.launchToks cfgs cellOf_inj)

set_option backward.isDefEq.respectTransparency.types false in
/-- From any memory with zero counters every weakly fair execution of the program terminates, nothing faulting,
    with the result at the host operations' value of the output array the region left, and both arguments unchanged. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      have h : (ownU u₀ : sProp 𝕄) ⊢ BI.own (EP (F := F) (initOf (Pipeline.cells (Pipeline.pin (pcfgs (F := F)) adm) cellOf_inj)
          (Pipeline.launchToks (Pipeline.pin (pcfgs (F := F)) adm) cellOf_inj))) := Entails.of_eq rfl
      iintro Hu
      ihave H := (h) $$ Hu
      imodintro
      isplitl [H]; · iexact H
      iapply (show (BI.emp : sProp 𝕄) ⊢ bigSep Finset.univ (fun _ : Dev nD => (BI.emp : sProp 𝕄)) from by rw [BI.bigSep_emp_const])
      iempintro)
    (T₀ := fun c => iprop(unscopedBufs c (V m c) ∗ R c)) (Tₙ := fun c => StableHlo.held (c : Thread nD τ) hostRefs (finalVal m c))
    (hch := ⟨fun _ => .rfl, fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => s.mem ((c : Thread nD τ).loc main_v3) = finalVal m c main_v3
      ∧ s.mem ((c : Thread nD τ).loc main_arg0) = m ((c : Thread nD τ).loc main_arg0)
      ∧ s.mem ((c : Thread nD τ).loc main_arg1) = m ((c : Thread nD τ).loc main_arg1))
    (hfin := fun c s' => by
      rw [← bufs_held, bufs_eq c (fun b => finalVal m c b), unscopedRest0_eq]
      iintro ⟨⟨⟨H1, H0, -⟩, -, -, -, -, H3⟩, HSI⟩
      icombine HSI H1 gives %h1
      icombine HSI H0 gives %h0
      icombine HSI H3 gives %h3
      imodintro
      isplitr
      · ipureintro
        exact ⟨Buf.eq_of_forall_mem_univ h3, (Buf.eq_of_forall_mem_univ h0).trans (finalVal_arg0 m c),
          (Buf.eq_of_forall_mem_univ h1).trans (finalVal_arg1 m c)⟩
      iexact HSI)
    (hQ := fun _ h => h)

/-- THE FRAME: the program runs to the end, faults nowhere, and leaves both arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1, (h c).2.2⟩) (run_main m ρ)

end Cert.KernelIdeal.Hand

end
-- ==== Proof.KIValue.ResultVal.lean ====
/-
  The program's result at the exact values: the five host operations read back over the output array the
  region left — zero plus the sum of its 16384 entries, its absolute value, divided by 16.
-/
import proofs.«118014_j1614907703898_2_alg».proof.Proof.KI.Main
import Idealize.ShloMosaic.Lib.StableHlo.Run
import Idealize.ShloMosaic.PureOps.Ideal

noncomputable section

namespace Cert.KernelIdeal.HandValue

open Idealize.ShloMosaic Idealize.ShloMosaic.TcCoe Idealize.SL.Sem Idealize.ShloMosaic.StableHlo
open Cert.KernelIdeal Cert.KernelIdeal.Gen

/-- After the run the result buffer holds |0 + sum of the output column| / 16. -/
theorem result_val (m : (ℓ : Loc nD τ sig) → Buf (Elt Ideal) ℓ) (c : Dev nD)
    (h1 : S16384x1.ReducesTo [0, 1] S_) (h2 : 0 < S_.numel) :
    Cert.KernelIdeal.Hand.finalVal (F := Ideal) m c main_v3
      = Host.divf (F := Ideal) (Host.absf (F := Ideal)
          (Host.reduceAdd (F := Ideal) (Cert.KernelIdeal.Hand.outFinal (F := Ideal) m c) (constant (F := Ideal) S_ .f32 0x00000000#32) h1 h2))
          (constant (F := Ideal) S_ .f32 0x41800000#32) := by
  unfold Cert.KernelIdeal.Hand.finalVal
  after_results

end Cert.KernelIdeal.HandValue

end
-- ==== Proof.KIValue.LibKeepdims.lean ====
/-
  Layout steps and single-axis reductions of small-rank arrays read at an index given by coordinates — a general
  module: every lemma is general in the extents, and the layout lemmas in the element type.
  Layout:
  • `shapeCast_a_a1_apply`: a vector recast as a column, `[a] → [a, 1]`, at `(i, u)` is the vector at `i`;
  • `broadcastTo_a1_ab_apply`: a column broadcast across the lanes, `[a, 1] → [a, b]`, at `(i, j)` is the column at `(i, 0)`;
  • `broadcastTo_11_ab_apply`: a one-entry matrix broadcast to `[a, b]` reads its one entry everywhere;
  • `shapeCast_ab_a1b_apply`: a matrix given a middle unit axis, `[a, b] → [a, 1, b]`, at `(i, u, k)` is the matrix at `(i, k)`;
  • `broadcastTo_a1c_abc_apply`: `[a, 1, c] → [a, b, c]` at `(i, j, k)` is the operand at `(i, 0, k)`.
  Reductions over one axis, at the exact values: the source index over a result index with coordinate `k` on the reduced
  axis (`lift_last_ab`, `lift_last_abc`, `lift_mid_abc`), and with them
  • `multiReduction_add_last_ab`, `multiReduction_add_last_abc`, `multiReduction_add_mid_abc`: an add reduction read as the
    sum over the reduced coordinate;
  • `multiReduction_max_last_abc`: a maximum reduction along the last axis read as the fold of `max` from the accumulator.
-/
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

namespace Cert.LibKeepdims

open Idealize.ShloMosaic Idealize.ShloMosaic.ValueIdx

section Layout
variable {α : Type}

/-- A vector recast as a column reads, at `(i, u)`, its entry `i`: the unit axis contributes nothing to the row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast across the lanes reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A one-entry matrix broadcast to `[a, b]` reads its one entry at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]

/-- A matrix given a middle unit axis reads, at `(i, u, k)`, the matrix at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

end Layout

section Lift

/-- Reducing `[a, b]` over its last axis: over the result index `i`, coordinate `k` on the reduced axis is `(i, k)`. -/
theorem lift_last_ab {a b : ℕ} (h : (⟨2, ![a, b]⟩ : Shape).Reduces [1] ⟨1, ![a]⟩) (i : Fin a) (k : Fin b) :
    h.lift (ix1 i) k = ix2 i k := by
  funext ax
  apply Fin.ext
  match ax with
  | ⟨0, _⟩ => rfl
  | ⟨1, _⟩ => rfl

/-- Reducing `[a, b, c]` over its last axis: over `(i, j)`, coordinate `k` on the reduced axis is `(i, j, k)`. -/
theorem lift_last_abc {a b c : ℕ} (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Reducing `[a, b, c]` over its middle axis: over `(i, k)`, coordinate `j` on the reduced axis is `(i, j, k)`. -/
theorem lift_mid_abc {a b c : ℕ} (h : (⟨3, ![a, b, c]⟩ : Shape).Reduces [1] ⟨2, ![a, c]⟩) (i : Fin a) (k : Fin c) (j : Fin b) :
    h.lift (ix2 i k) j = ix3 i j k := by
  funext ax
  apply Fin.ext
  match ax with
  | ⟨0, _⟩ => rfl
  | ⟨1, _⟩ => rfl
  | ⟨2, _⟩ => rfl

end Lift

section Reductions
variable {φ : FTy}

/-- An add reduction of `[a, b]` along its last axis, at the exact values, read at `i`: the row's sum. -/
theorem multiReduction_add_last_ab {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last_ab h i k))

/-- An add reduction of `[a, b, c]` along its last axis, at the exact values, read at `(i, j)`. -/
theorem multiReduction_add_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last_abc h i j k))

/-- An add reduction of `[a, b, c]` along its middle axis, at the exact values, read at `(i, k)`. -/
theorem multiReduction_add_mid_abc {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_mid_abc h i k j))

/-- A maximum reduction of `[a, b, c]` along its last axis, at the exact values, read at `(i, j)`: the fold of `max` from
    the accumulator's value over the row. -/
theorem multiReduction_max_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_last_abc h i j k)))

end Reductions

end Cert.LibKeepdims
-- ==== Proof.KIValue.Payloads.lean ====
/-
  The body's three pure values, read at an index, at the exact values.

  * the reset value is zero everywhere;
  * the accumulator's new value at [p, q] is its old value there plus the sum over the 2048 columns j of the
    matrix block at [p, j] times the input block at [j, q] (a change of float format is the identity at the
    exact values, and the product into a zero accumulator is the plain sum of products);
  * the output block at [p, 0] is the sum over the 16 columns q of the input's row block at [p, q] times the
    accumulator at [p, q].
-/
import proofs.«118014_j1614907703898_2_alg».proof.Proof.Gen.KernelIdeal.Skeleton
import proofs.«118014_j1614907703898_2_alg».proof.Proof.KIValue.LibKeepdims
import Idealize.ShloMosaic.Lib.Pipeline.Value
import Idealize.ShloMosaic.Lib.ValueIdx
import Idealize.ShloMosaic.PureOps.Ideal.Laws

noncomputable section

open scoped BigOperators

namespace Cert.KernelIdeal.HandValue

open Idealize.ShloMosaic Idealize.ShloMosaic.ValueIdx Cert.KernelIdeal Cert.KernelIdeal.Gen

/-- The reset value is zero at every index. -/
theorem pay1_apply (i : S1024x16.Idx) : k0_pay1 (F := Ideal) i = 0 := by
  show shapeCast S1024x16 (broadcast S1024x16 (Scalar.ofBits (F := Ideal) .f32 0x00000000#32)) _ i = 0
  rw [shapeCast_self]
  exact Ideal.ofBits_zero_f32

/-- The operands of the body's product at an output index i and a contraction index q, coordinate by coordinate:
    the left one is (row of i, q), the right one (q, column of i). -/
theorem lhs_0 (i : S1024x16.Idx) (q : dot_S1024x2048_S2048x16_S1024x16_1_0_0_1_n_n.contr.Idx) :
    (dot_S1024x2048_S2048x16_S1024x16_1_0_0_1_n_n.lhsIdx i q 0).val = (i 0).val := by
  unfold DotDims.lhsIdx
  rw [dif_neg (show ¬(0 : Fin S1024x2048.rank) ∈ dot_S1024x2048_S2048x16_S1024x16_1_0_0_1_n_n.lhsBatch by decide), dif_pos (show (0 : Fin S1024x2048.rank) ∈ dot_S1024x2048_S2048x16_S1024x16_1_0_0_1_n_n.lhsNonContracting by decide)]
  rfl
theorem lhs_1 (i : S1024x16.Idx) (q : dot_S1024x2048_S2048x16_S1024x16_1_0_0_1_n_n.contr.Idx) :
    (dot_S1024x2048_S2048x16_S1024x16_1_0_0_1_n_n.lhsIdx i q 1).val = (q ⟨0, by decide⟩).val :=
  dot_S1024x2048_S2048x16_S1024x16_1_0_0_1_n_n.lhsIdx_val_of_single rfl i q
theorem rhs_0 (i : S1024x16.Idx) (q : dot_S1024x2048_S2048x16_S1024x16_1_0_0_1_n_n.contr.Idx) :
    (dot_S1024x2048_S2048x16_S1024x16_1_0_0_1_n_n.rhsIdx i q 0).val = (q ⟨0, by decide⟩).val :=
  dot_S1024x2048_S2048x16_S1024x16_1_0_0_1_n_n.rhsIdx_val_of_single rfl i q
theorem rhs_1 (i : S1024x16.Idx) (q : dot_S1024x2048_S2048x16_S1024x16_1_0_0_1_n_n.contr.Idx) :
    (dot_S1024x2048_S2048x16_S1024x16_1_0_0_1_n_n.rhsIdx i q 1).val = (i 1).val := by
  unfold DotDims.rhsIdx
  rw [dif_neg (show ¬(1 : Fin S2048x16.rank) ∈ dot_S1024x2048_S2048x16_S1024x16_1_0_0_1_n_n.rhsBatch by decide), dif_pos (show (1 : Fin S2048x16.rank) ∈ dot_S1024x2048_S2048x16_S1024x16_1_0_0_1_n_n.rhsNonContracting by decide)]
  rfl

/-- The body's product of two blocks, into a zero accumulator, at [p, q]: the sum over the contraction coordinate. -/
theorem matmul_at (A : FVec Ideal S1024x2048 .bf16) (B : FVec Ideal S2048x16 .bf16) (p : Fin 1024) (q : Fin 16) :
    matmul dot_S1024x2048_S2048x16_S1024x16_1_0_0_1_n_n none A B (constant (F := Ideal) S1024x16 .f32 0x00000000#32) (ix2 p q)
      = ∑ j : Fin 2048, A (ix2 p j) * B (ix2 j q) := by
  refine (Ideal.matmul_constant_zero_apply dot_S1024x2048_S2048x16_S1024x16_1_0_0_1_n_n none A B (ix2 p q)).trans ?_
  rw [← Equiv.sum_comp (contrEquiv1 dot_S1024x2048_S2048x16_S1024x16_1_0_0_1_n_n 2048 rfl rfl).symm]
  refine Finset.sum_congr rfl fun k _ => ?_
  have hk := contrEquiv1_symm_val dot_S1024x2048_S2048x16_S1024x16_1_0_0_1_n_n 2048 rfl rfl k
  have el : dot_S1024x2048_S2048x16_S1024x16_1_0_0_1_n_n.lhsIdx (ix2 p q) ((contrEquiv1 dot_S1024x2048_S2048x16_S1024x16_1_0_0_1_n_n 2048 rfl rfl).symm k) = ix2 p k := funext fun a => Fin.ext (by
    match a with
    | ⟨0, _⟩ => exact lhs_0 _ _
    | ⟨1, _⟩ => exact (lhs_1 _ _).trans hk)
  have er : dot_S1024x2048_S2048x16_S1024x16_1_0_0_1_n_n.rhsIdx (ix2 p q) ((contrEquiv1 dot_S1024x2048_S2048x16_S1024x16_1_0_0_1_n_n 2048 rfl rfl).symm k) = ix2 k q := funext fun a => Fin.ext (by
    match a with
    | ⟨0, _⟩ => exact (rhs_0 _ _).trans hk
    | ⟨1, _⟩ => exact rhs_1 _ _)
  rw [el, er]

/-- The accumulator's new value at [p, q]: the old value plus the product of the two blocks there. -/
theorem pay2_apply (v3 : Vec Ideal S1024x2048 .f32) (v5 : Vec Ideal S2048x16 .f32) (v7 : Vec Ideal S1024x16 .f32)
    (p : Fin 1024) (q : Fin 16) :
    k0_pay2 v3 v5 v7 (ix2 p q) = v7 (ix2 p q) + ∑ j : Fin 2048, v3 (ix2 p j) * v5 (ix2 j q) := by
  show shapeCast S1024x16 (addf v7 (matmul dot_S1024x2048_S2048x16_S1024x16_1_0_0_1_n_n none
    (truncf .bf16 v3 _) (truncf .bf16 v5 _) (constant (F := Ideal) S1024x16 .f32 0x00000000#32))) _ (ix2 p q) = _
  rw [shapeCast_self]
  exact congrArg (v7 (ix2 p q) + ·) (matmul_at _ _ p q)

/-- The output block at [p, 0]: the row sum of the input's row block times the accumulator. -/
theorem pay3_apply (v16 : Vec Ideal S1024x16 .f32) (v17 : Vec Ideal S1024x16 .f32) (p : Fin 1024) :
    k0_pay3 v16 v17 (ix2 p (0 : Fin 1)) = ∑ q : Fin 16, v16 (ix2 p q) * v17 (ix2 p q) := by
  show shapeCast S1024x1 (multiReduction (F := Ideal) .add [1] S1024 (mulf v16 v17) 0x00000000#32 reduces_S1024x16_S1024 (.inl rfl) rfl)
    _ (ix2 p (0 : Fin 1)) = _
  refine (Cert.LibKeepdims.shapeCast_a_a1_apply _ _ p (0 : Fin 1)).trans ?_
  exact Cert.LibKeepdims.multiReduction_add_last_ab (mulf v16 v17) 0x00000000#32 reduces_S1024x16_S1024 (.inl rfl) rfl p

end Cert.KernelIdeal.HandValue

end
-- ==== Proof.KIValue.Blocks.lean ====
/-
  The staged blocks as entries of the two argument arrays.

  At grid point t the row block is t / 8 and the column block is t mod 8.  An element of a block sits in its
  array, on each axis, at the block's index times the block's extent plus its coordinate inside the block:
  * the matrix block at [p, j] is the matrix at [1024 (t / 8) + p, 2048 (t mod 8) + j];
  * the input block that is multiplied, at [j, q], is the input at [2048 (t mod 8) + j, q];
  * the input's row block for the row sums, at [p, q], is the input at [1024 (t / 8) + p, q].
-/
import proofs.«118014_j1614907703898_2_alg».proof.Proof.KI.Data
import Idealize.ShloMosaic.Lib.Pipeline.Value
import Idealize.ShloMosaic.Lib.ValueIdx

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand

/-- The block indices of the four windows at every grid point: row block t / 8, column block t mod 8. -/
theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0 :=
  (by decide +kernel : ∀ t : Fin grid0.N, _)

variable (m : (ℓ : Loc nD τ sig) → Buf (Elt Ideal) ℓ)

/-- The matrix block at point t, at [p, j], is the matrix at row 1024 (t / 8) + p, column 2048 (t mod 8) + j. -/
theorem iblk0_apply (c : Dev nD) (t : Fin cfg0.N) (p : Fin 1024) (j : Fin 2048) (i : S16384x16384.Idx)
    (h0 : (i 0).val = 1024 * (t.val / 8) + p.val) (h1 : (i 1).val = 2048 * (t.val % 8) + j.val) :
    (iblk m c 0 t : Vec Ideal S1024x2048 .f32) (ix2 p j)
      = (m ((c : Thread nD τ).loc main_arg1) : S16384x16384.Idx → EReal) i := by
  obtain ⟨e0, e1, -⟩ := idx_facts t
  unfold iblk
  rw [View.read_apply]
  show V m c main_arg1 _ = m (c.tc.loc main_arg1) _
  unfold V
  congr 1
  funext a
  apply Fin.ext
  match a with
  | ⟨0, _⟩ => show win0_0.index t (0 : Fin 2) * 1024 + 1 * p.val = (i 0).val; rw [e0, h0]; omega
  | ⟨1, _⟩ => show win0_0.index t (1 : Fin 2) * 2048 + 1 * j.val = (i 1).val; rw [e1, h1]; omega

/-- The input block multiplied at point t, at [j, q], is the input at row 2048 (t mod 8) + j, column q. -/
theorem iblk1_apply (c : Dev nD) (t : Fin cfg0.N) (j : Fin 2048) (q : Fin 16) (i : S16384x16.Idx)
    (h0 : (i 0).val = 2048 * (t.val % 8) + j.val) (h1 : (i 1).val = q.val) :
    (iblk m c 1 t : Vec Ideal S2048x16 .f32) (ix2 j q)
      = (m ((c : Thread nD τ).loc main_arg0) : S16384x16.Idx → EReal) i := by
  obtain ⟨-, -, e0, e1, -⟩ := idx_facts t
  unfold iblk
  rw [View.read_apply]
  show V m c main_arg0 _ = m (c.tc.loc main_arg0) _
  unfold V
  congr 1
  funext a
  apply Fin.ext
  match a with
  | ⟨0, _⟩ => show win0_1.index t (0 : Fin 2) * 2048 + 1 * j.val = (i 0).val; rw [e0, h0]; omega
  | ⟨1, _⟩ => show win0_1.index t (1 : Fin 2) * 16 + 1 * q.val = (i 1).val; rw [e1, h1]; omega

/-- The input's row block at point t, at [p, q], is the input at row 1024 (t / 8) + p, column q. -/
theorem iblk2_apply (c : Dev nD) (t : Fin cfg0.N) (p : Fin 1024) (q : Fin 16) (i : S16384x16.Idx)
    (h0 : (i 0).val = 1024 * (t.val / 8) + p.val) (h1 : (i 1).val = q.val) :
    (iblk m c 2 t : Vec Ideal S1024x16 .f32) (ix2 p q)
      = (m ((c : Thread nD τ).loc main_arg0) : S16384x16.Idx → EReal) i := by
  obtain ⟨-, -, -, -, e0, e1, -⟩ := idx_facts t
  unfold iblk
  rw [View.read_apply]
  show V m c main_arg0 _ = m (c.tc.loc main_arg0) _
  unfold V
  congr 1
  funext a
  apply Fin.ext
  match a with
  | ⟨0, _⟩ => show win0_2.index t (0 : Fin 2) * 1024 + 1 * p.val = (i 0).val; rw [e0, h0]; omega
  | ⟨1, _⟩ => show win0_2.index t (1 : Fin 2) * 16 + 1 * q.val = (i 1).val; rw [e1, h1]; omega

end Cert.KernelIdeal.HandValue

end
-- ==== Proof.Bridge.Spec.lean ====
/-
  What the kernel computes, as mathematics over the extended reals, for the kernel
  |sum (input * (P @ input))| / 16 with P @ input accumulated over eight column blocks of P.

  For a row r and a column c, one grid step k adds the partial product of row r of P, columns
  [2048 k, 2048 k + 2048), with column c of the input (`blockDot`); the accumulator starts from zero at
  k = 0 (`accK`); after the eighth step the row's output is the sum over the sixteen columns of
  input[r, c] times the accumulated product (`rowOut`).  Nothing here mentions a program: the
  shapes are literal and the indices are built from coordinates.
-/
import Idealize.ShloMosaic.PureOps.Ideal
import Idealize.ShloMosaic.Lib.ValueIdx

noncomputable section

open scoped BigOperators

namespace Cert.Spec

open Idealize.ShloMosaic Idealize.ShloMosaic.ValueIdx

/-- The input, [16384, 16]; the matrix P, [16384, 16384]; the per-row partial sums, [16384, 1]. -/
abbrev SX : Shape := ⟨2, ![16384, 16]⟩
abbrev SP : Shape := ⟨2, ![16384, 16384]⟩
abbrev SO : Shape := ⟨2, ![16384, 1]⟩

/-- Column j of column block k of P (equally: row j of row block k of the input). For k < 8 the
    remainder is the identity; it is there so that the definition needs no bound on k. -/
def kcol (k : Nat) (j : Fin 2048) : Fin 16384 := ⟨(2048 * k + j.val) % 16384, Nat.mod_lt _ (by decide)⟩

/-- One grid step's product: row r of P restricted to column block k, against column c of the input. -/
def blockDot (x : SX.Idx → EReal) (P : SP.Idx → EReal) (r : Fin 16384) (c : Fin 16) (k : Nat) : EReal :=
  ∑ j : Fin 2048, P (ix2 r (kcol k j)) * x (ix2 (kcol k j) c)

/-- The accumulator after the steps 0, …, n: zero plus the first product, then one more product per step. -/
def accK (x : SX.Idx → EReal) (P : SP.Idx → EReal) (r : Fin 16384) (c : Fin 16) : Nat → EReal
  | 0 => 0 + blockDot x P r c 0
  | n + 1 => accK x P r c n + blockDot x P r c (n + 1)

/-- Row r of the kernel's output: the sum over the columns of input[r, c] times the product accumulated
    over all eight steps. -/
def rowOut (x : SX.Idx → EReal) (P : SP.Idx → EReal) (r : Fin 16384) : EReal :=
  ∑ c : Fin 16, x (ix2 r c) * accK x P r c 7

end Cert.Spec

end
-- ==== Proof.KIValue.Acc.lean ====
/-
  The accumulator along a row block is the specification's running sum.

  At point t (row block t / 8, column block k = t mod 8) one step's product at [p, q] is the specification's
  block product for the row r = 1024 (t / 8) + p of the matrix, the column q of the input and the block k.
  The first step of a row block adds it to zero, every later step to what the accumulator held: exactly the
  recursion of the specification, so after the step with column block k the accumulator at [p, q] is the
  specification's running sum up to k — by induction on the point, eight steps never enumerated.
-/
import proofs.«118014_j1614907703898_2_alg».proof.Proof.KIValue.Payloads
import proofs.«118014_j1614907703898_2_alg».proof.Proof.KIValue.Blocks
import proofs.«118014_j1614907703898_2_alg».proof.Proof.Bridge.Spec

noncomputable section

open scoped BigOperators

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand Cert.Spec

variable (m : (ℓ : Loc nD τ sig) → Buf (Elt Ideal) ℓ)

/-- The input array and the matrix, as the run finds them. -/
abbrev argX (c : Dev nD) : SX.Idx → EReal := m ((c : Thread nD τ).loc main_arg0)
abbrev argP (c : Dev nD) : SP.Idx → EReal := m ((c : Thread nD τ).loc main_arg1)

/-- The staged blocks at point t at their literal shapes: the matrix block, the input block that multiplies it,
    and the input's row block. -/
abbrev blkP (c : Dev nD) (t : Fin cfg0.N) : Vec Ideal S1024x2048 .f32 := iblk m c 0 t
abbrev blkX (c : Dev nD) (t : Fin cfg0.N) : Vec Ideal S2048x16 .f32 := iblk m c 1 t
abbrev blkR (c : Dev nD) (t : Fin cfg0.N) : Vec Ideal S1024x16 .f32 := iblk m c 2 t

/-- One step's product at [p, q]: the specification's block product for row 1024 (t / 8) + p and block t mod 8. -/
theorem step_dot (c : Dev nD) (t : Fin cfg0.N) (p : Fin 1024) (q : Fin 16) (r : Fin 16384)
    (hr : r.val = 1024 * (t.val / 8) + p.val) (k : ℕ) (hk : t.val % 8 = k) :
    ∑ j : Fin 2048, blkP m c t (ix2 p j) * blkX m c t (ix2 j q)
      = blockDot (argX m c) (argP m c) r q k := by
  subst hk
  unfold blockDot
  refine Finset.sum_congr rfl fun j _ => ?_
  have hc : (kcol (t.val % 8) j).val = 2048 * (t.val % 8) + j.val := by
    show (2048 * (t.val % 8) + j.val) % 16384 = 2048 * (t.val % 8) + j.val
    have hj := j.isLt
    omega
  exact congrArg₂ (· * ·) (iblk0_apply m c t p j (ix2 r (kcol (t.val % 8) j)) hr hc)
    (iblk1_apply m c t j q (ix2 (kcol (t.val % 8) j) q) hc rfl)

/-- A first step of a row block leaves zero plus its product. -/
theorem acc_first (c : Dev nD) (n : ℕ) (hn : n < cfg0.N) (h : n % 8 = 0) (p : Fin 1024) (q : Fin 16) (r : Fin 16384)
    (hr : r.val = 1024 * (n / 8) + p.val) :
    accAt m c n hn (ix2 p q) = accK (argX m c) (argP m c) r q 0 := by
  refine (congrFun (accAt_first m c ⟨n, hn⟩ h) (ix2 p q)).trans ?_
  refine (pay2_apply (blkP m c ⟨n, hn⟩) (blkX m c ⟨n, hn⟩) (k0_pay1 (F := Ideal)) p q).trans ?_
  exact congrArg₂ (· + ·) (pay1_apply (ix2 p q)) (step_dot m c ⟨n, hn⟩ p q r hr 0 h)

/-- A later step adds its product to what the accumulator held. -/
theorem acc_next (c : Dev nD) (n : ℕ) (hn : n + 1 < cfg0.N) (h : ¬(n + 1) % 8 = 0) (p : Fin 1024) (q : Fin 16) (r : Fin 16384)
    (hr : r.val = 1024 * ((n + 1) / 8) + p.val) (k : ℕ) (hk : (n + 1) % 8 = k + 1) :
    accAt m c (n + 1) hn (ix2 p q)
      = accAt m c n (Nat.lt_of_succ_lt hn) (ix2 p q) + blockDot (argX m c) (argP m c) r q (k + 1) := by
  refine (congrFun (accAt_next m c ⟨n + 1, hn⟩ h) (ix2 p q)).trans ?_
  refine (pay2_apply (blkP m c ⟨n + 1, hn⟩) (blkX m c ⟨n + 1, hn⟩) (accAt m c n (Nat.lt_of_succ_lt hn)) p q).trans ?_
  exact congrArg (accAt m c n (Nat.lt_of_succ_lt hn) (ix2 p q) + ·) (step_dot m c ⟨n + 1, hn⟩ p q r hr (k + 1) hk)

/-- After the point n, whose column block is k = n mod 8, the accumulator at [p, q] is the specification's running
    sum up to k for the row 1024 (n / 8) + p. -/
theorem accAt_eq (c : Dev nD) : ∀ (n : ℕ) (hn : n < cfg0.N) (k : ℕ), n % 8 = k → ∀ (p : Fin 1024) (q : Fin 16) (r : Fin 16384),
    r.val = 1024 * (n / 8) + p.val → accAt m c n hn (ix2 p q) = accK (argX m c) (argP m c) r q k := by
  intro n
  induction n with
  | zero =>
    intro hn k hk p q r hr
    obtain rfl : k = 0 := by omega
    exact acc_first m c 0 hn rfl p q r hr
  | succ n ih =>
    intro hn k hk p q r hr
    by_cases h : (n + 1) % 8 = 0
    · obtain rfl : k = 0 := by omega
      exact acc_first m c (n + 1) hn h p q r hr
    · obtain ⟨k', rfl⟩ : ∃ k', k = k' + 1 := ⟨k - 1, by omega⟩
      have hk' : n % 8 = k' := by omega
      have hr' : r.val = 1024 * (n / 8) + p.val := by omega
      refine (acc_next m c n hn h p q r hr k' hk).trans ?_
      rw [ih (Nat.lt_of_succ_lt hn) k' hk' p q r hr']
      rfl

/-- The output block a last step stores, at [p, 0], is the specification's row output for the row 1024 (t / 8) + p. -/
theorem outAt_apply (c : Dev nD) (t : Fin cfg0.N) (h7 : t.val % 8 = 7) (p : Fin 1024) (r : Fin 16384)
    (hr : r.val = 1024 * (t.val / 8) + p.val) :
    outAt m c t (ix2 p (0 : Fin 1)) = rowOut (argX m c) (argP m c) r := by
  unfold outAt rowOut
  refine (pay3_apply (blkR m c t) (accAt m c t.val t.isLt) p).trans ?_
  refine Finset.sum_congr rfl fun q _ => ?_
  exact congrArg₂ (· * ·) (iblk2_apply m c t p q (ix2 r q) hr rfl) (accAt_eq m c t.val t.isLt 7 h7 p q r hr)

end Cert.KernelIdeal.HandValue

end
-- ==== Proof.KIValue.OutFinal.lean ====
/-
  The output array after the run.

  The output's blocks are written back exactly at the last step of each row block (column block 7), and the
  block of the point t covers the rows 1024 (t / 8), …, 1024 (t / 8) + 1023 of the [16384, 1] array.  What
  such a point writes back is, entry by entry, the specification's row output of the two argument arrays
  for that row; the sixteen row blocks tile the array (row r lies in the block of the point 8 (r / 1024) + 7);
  so every entry [r, 0] of the array ends holding the row output of row r.
-/
import proofs.«118014_j1614907703898_2_alg».proof.Proof.KIValue.Acc

noncomputable section

open scoped BigOperators

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.Spec

variable (m : (ℓ : Loc nD τ sig) → Buf (Elt Ideal) ℓ)

/-- The whole output array as one function of the two argument arrays: entry [r, u] is the row output of row r. -/
def rowsOut (c : Dev nD) : S16384x1.Idx → EReal :=
  fun i => rowOut (argX m c) (argP m c) ⟨(i 0).val, idx2_lt0 i⟩

/-- An index of the output array is in the block of the point t iff each coordinate is in the block's range. -/
theorem mem_blk3 (t : Fin cfg0.N) (i : S16384x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v0).slice (win0_3.rect t)).set ↔ _
  rw [View.set_slice_whole, Rect.mem_set_unit]
  exact Iff.rfl

/-- What a last step of a row block writes back is its block of the whole-array function. -/
theorem flushed_eq (c : Dev nD) (t : Fin cfg0.N) (hf : (cfg0.win 3).flush t = true) :
    (dats m 0 c).flushed 3 t = ((cfg0.win 3).blk t).view.read (Elt Ideal) (rowsOut m c) := by
  have h7 : t.val % 8 = 7 := (flush0_3 t).mp hf
  obtain ⟨-, -, -, -, -, -, e0, -⟩ := idx_facts t
  show (cfg0.win 3).cut (grid0.coords t) ((dats m 0 c).after 3 t) = _
  rw [after0_3]
  funext y
  obtain ⟨p, u, rfl⟩ : ∃ (p : Fin 1024) (u : Fin 1), y = ix2 p u := ⟨y 0, y 1, eq_ix2 y⟩
  obtain rfl : u = 0 := Subsingleton.elim _ _
  rw [View.read_apply]
  show outAt m c t (ix2 p (0 : Fin 1)) = rowsOut m c (((cfg0.win 3).blk t).view.emb (ix2 p (0 : Fin 1)))
  refine outAt_apply m c t h7 p _ ?_
  show win0_3.index t (0 : Fin 2) * 1024 + 1 * p.val = 1024 * (t.val / 8) + p.val
  rw [e0]
  omega

/-- The row blocks tile the array: row r is in the block of the last step of row block r / 1024. -/
theorem cover (i : S16384x1.Idx) :
    ∃ t : Fin cfg0.N, (cfg0.win 3).flush t = true ∧ i ∈ ((cfg0.win 3).blk t).view.set := by
  have hi0 : (i 0).val < 16384 := idx2_lt0 i
  have hi1 : (i 1).val < 1 := idx2_lt1 i
  have hN : grid0.N = 128 := N_0
  have hlt : 8 * ((i 0).val / 1024) + 7 < cfg0.N := by
    show 8 * ((i 0).val / 1024) + 7 < grid0.N
    rw [hN]
    omega
  obtain ⟨t, ht⟩ : ∃ t : Fin cfg0.N, t.val = 8 * ((i 0).val / 1024) + 7 := ⟨⟨_, hlt⟩, rfl⟩
  obtain ⟨-, -, -, -, -, -, e0, e1⟩ := idx_facts t
  refine ⟨t, (flush0_3 t).mpr (by omega), ?_⟩
  rw [mem_blk3]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1 ≤ (i 1).val ∧ (i 1).val < win0_3.index t (1 : Fin 2) * 1 + 1
    omega

/-- The output array after the run is the whole-array function of the two argument arrays. -/
theorem final (c : Dev nD) : (dats m 0 c).arrAt 3 cfg0.N = rowsOut m c :=
  (dats m 0 c).arrAt_eq_of_cover 3 (rowsOut m c) (flushed_eq m c) cover

/-- After the run, entry [r, 0] of the output array is the specification's row output of the input array and the
    matrix for the row r. -/
theorem out_final (c : Dev nD) (r : Fin 16384) :
    (Cert.KernelIdeal.Hand.dats (F := Ideal) m 0 c).arrAt 3 cfg0.N (ix2 r (0 : Fin 1))
      = Cert.Spec.rowOut (m ((c : Thread nD τ).loc main_arg0)) (m ((c : Thread nD τ).loc main_arg1)) r :=
  congrFun (final m c) (ix2 r (0 : Fin 1))

end Cert.KernelIdeal.HandValue

end
-- ==== Proof.Bridge.LibSumBlocks.lean ====
/-
  Finite sums over index sets, rearranged; every statement holds in any commutative additive monoid.

  * `sum_blocks`: a sum over `m * n` consecutive positions is the sum over `m` blocks of the sums over the `n`
    positions inside each block (position `t * n + r` is position `r` of block `t`).
  * `sum_idx1`: a sum over the index set of a rank-1 shape `[n]` is the sum over its one coordinate.
  * `sum_idxMid`: a sum over the index set of a shape `[1, n, 1]` is the sum over its middle coordinate.
-/
import Idealize.ShloMosaic.Lib.ValueIdx

open scoped BigOperators

namespace Cert.Lib.SumBlocks

open Idealize.ShloMosaic Idealize.ShloMosaic.ValueIdx

/-- A sum over `N = m * n` positions is the sum over `m` blocks of `n` consecutive positions each: `g t r` names
    position `r` of block `t`, which is position `t * n + r` of the whole. Only commutativity and associativity of
    the addition are used. -/
theorem sum_blocks {M : Type*} [AddCommMonoid M] (m n N : ℕ) (hN : N = m * n) (f : Fin N → M)
    (g : Fin m → Fin n → Fin N) (hg : ∀ t r, (g t r).val = t.val * n + r.val) :
    ∑ i : Fin N, f i = ∑ t : Fin m, ∑ r : Fin n, f (g t r) := by
  subst hN
  rw [← Equiv.sum_comp finProdFinEquiv f, Fintype.sum_prod_type]
  refine Finset.sum_congr rfl fun t _ => Finset.sum_congr rfl fun r _ => congrArg f (Fin.ext ?_)
  rw [hg, finProdFinEquiv_apply_val]
  show r.val + n * t.val = t.val * n + r.val
  rw [Nat.mul_comm, Nat.add_comm]

/-- The index set of a rank-1 shape is the range of its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The index set of a shape `[1, n, 1]` is the range of its middle coordinate: the two outer coordinates can only
    be `0` … -/
def idxEquivMid {n : Nat} : (⟨3, ![1, n, 1]⟩ : Shape).Idx ≃ Fin n where
  toFun i := i 1
  invFun a := ix3 (0 : Fin 1) a (0 : Fin 1)
  left_inv i := by
    funext d
    match d with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idxMid {M : Type*} [AddCommMonoid M] {n : Nat} (f : (⟨3, ![1, n, 1]⟩ : Shape).Idx → M) :
    ∑ i, f i = ∑ a : Fin n, f (ix3 (0 : Fin 1) a (0 : Fin 1)) := by
  rw [← Equiv.sum_comp (idxEquivMid (n := n)).symm f]
  rfl

end Cert.Lib.SumBlocks
-- ==== Proof.Bridge.SumBlocks.lean ====
/-
  The product accumulated over the eight column blocks is the full product.

  The accumulator after step n is the sum of the block products of the steps 0, …, n (the leading zero
  is the neutral element of the addition).  Column j of block k is column 2048 k + j of the matrix, so
  the eight block products together run once over each of the 16384 = 8 * 2048 columns: their sum is
  the sum over all columns, by regrouping alone.  No product is moved across a sum.
-/
import proofs.«118014_j1614907703898_2_alg».proof.Proof.Bridge.Spec
import proofs.«118014_j1614907703898_2_alg».proof.Proof.Bridge.LibSumBlocks

noncomputable section

open scoped BigOperators

namespace Cert.Bridge

open Idealize.ShloMosaic Idealize.ShloMosaic.ValueIdx Cert.Spec

/-- The accumulator after the steps 0, …, n is the sum of their block products. -/
theorem accK_eq_sum_range (x : SX.Idx → EReal) (P : SP.Idx → EReal) (r : Fin 16384) (c : Fin 16) (n : Nat) :
    accK x P r c n = ∑ k ∈ Finset.range (n + 1), blockDot x P r c k := by
  induction n with
  | zero => rw [accK, zero_add, Finset.sum_range_one]
  | succ n ih => rw [accK, ih, Finset.sum_range_succ _ (n + 1)]

/-- For a block number below eight no remainder is taken: column j of block t is column 2048 t + j. -/
theorem kcol_val (t : Fin 8) (j : Fin 2048) : (kcol t.val j).val = t.val * 2048 + j.val := by
  show (2048 * t.val + j.val) % 16384 = t.val * 2048 + j.val
  have ht := t.isLt
  have hj := j.isLt
  omega

/-- After the eighth step the accumulator holds the product of row r of the matrix with column c of the
    input, summed over all 16384 columns. -/
theorem accK7_eq (x : SX.Idx → EReal) (P : SP.Idx → EReal) (r : Fin 16384) (c : Fin 16) :
    accK x P r c 7 = ∑ j' : Fin 16384, P (ix2 r j') * x (ix2 j' c) := by
  rw [accK_eq_sum_range, ← Fin.sum_univ_eq_sum_range (fun k => blockDot x P r c k) (7 + 1)]
  exact (Cert.Lib.SumBlocks.sum_blocks 8 2048 16384 (by norm_num)
    (fun j' => P (ix2 r j') * x (ix2 j' c)) (fun t j => kcol t.val j) kcol_val).symm

/-- Row r of the kernel's output is the sum over the columns c of input[r, c] times the full product at [r, c]. -/
theorem rowOut_eq (x : SX.Idx → EReal) (P : SP.Idx → EReal) (r : Fin 16384) :
    rowOut x P r = ∑ c : Fin 16, x (ix2 r c) * ∑ j' : Fin 16384, P (ix2 r j') * x (ix2 j' c) :=
  Finset.sum_congr rfl fun c _ => congrArg (x (ix2 r c) * ·) (accK7_eq x P r c)

end Cert.Bridge

end
-- ==== Proof.Bridge.Result.lean ====
/-
  The sum of the kernel's per-row outputs is the reference's sum.

  The reference sums input[r, c] * (P @ input)[r, c] over every index [r, c] of a [16384, 16] array, from zero;
  (P @ input)[r, c] is the sum over k of P[r, k] * input[k, c].  The kernel's output has one entry per row,
  the sum over c of input[r, c] times the product accumulated over the eight column blocks, which is the
  same sum over k (regrouped); the host then sums these 16384 entries from zero.  A sum over all indices
  [r, c] is the sum over r of the sums over c, so the two totals agree term by term.
-/
import proofs.«118014_j1614907703898_2_alg».proof.Proof.Gen.ReferenceIdeal.Read
import proofs.«118014_j1614907703898_2_alg».proof.Proof.Bridge.SumBlocks

noncomputable section

open scoped BigOperators

namespace Cert.Bridge

open Idealize.ShloMosaic Idealize.ShloMosaic.ValueIdx Cert.Spec

/-- The reference's product at [r, c]: the sum over k of P[r, k] * input[k, c]. -/
theorem dot_apply (x : FVec Ideal SX .f32) (P : FVec Ideal SP .f32) (r : Fin 16384) (c : Fin 16) :
    Host.dotGeneral (F := Ideal) Cert.ReferenceIdeal.dot_S16384x16384_S16384x16_S16384x16_1_0_0_1_n_n none P x (ix2 r c)
      = ∑ k : Fin 16384, P (ix2 r k) * x (ix2 k c) := by
  refine (Cert.ReferenceIdeal.Read.val_main_v0_apply x P (ix2 r c)).trans ?_
  refine Finset.sum_congr rfl fun k _ => ?_
  have el : Cert.ReferenceIdeal.Read.lidx_main_v0 (ix2 r c) k = ix2 r k := by
    funext a; match a with | ⟨0, _⟩ => rfl | ⟨1, _⟩ => rfl
  have er : Cert.ReferenceIdeal.Read.ridx_main_v0 (ix2 r c) k = ix2 k c := by
    funext a; match a with | ⟨0, _⟩ => rfl | ⟨1, _⟩ => rfl
  rw [el, er]

/-- The sum of the per-row outputs over the [16384, 1] array is the sum over the rows r of the sums over the
    columns c of input[r, c] times the full product at [r, c]. -/
theorem kernel_total (x : FVec Ideal SX .f32) (P : FVec Ideal SP .f32) (out : FVec Ideal SO .f32)
    (hout : ∀ r : Fin 16384, out (ix2 r (0 : Fin 1)) = rowOut x P r) :
    ∑ i : SO.Idx, out i = ∑ r : Fin 16384, ∑ c : Fin 16, x (ix2 r c) * ∑ k : Fin 16384, P (ix2 r k) * x (ix2 k c) := by
  refine (sum_idx2 (n0 := 16384) (n1 := 1) out).trans ?_
  refine Finset.sum_congr rfl fun r _ => ?_
  rw [Fin.sum_univ_one, hout, rowOut_eq]

/-- The reference's sum over every index [r, c] is the sum over the rows of the sums over the columns. -/
theorem reference_total (x : FVec Ideal SX .f32) (P : FVec Ideal SP .f32) :
    ∑ i : SX.Idx, mulf x (Host.dotGeneral (F := Ideal) Cert.ReferenceIdeal.dot_S16384x16384_S16384x16_S16384x16_1_0_0_1_n_n none P x) i
      = ∑ r : Fin 16384, ∑ c : Fin 16, x (ix2 r c) * ∑ k : Fin 16384, P (ix2 r k) * x (ix2 k c) := by
  refine (sum_idx2 (n0 := 16384) (n1 := 16) _).trans ?_
  refine Finset.sum_congr rfl fun r _ => Finset.sum_congr rfl fun c _ => ?_
  rw [mulf_apply, dot_apply]

/-- The two totals agree: the host's sum of the kernel's per-row outputs is the reference's sum of
    input * (P @ input) over the whole array, both from zero. -/
theorem reduce_eq
    (x : FVec Ideal Cert.Spec.SX .f32) (P : FVec Ideal Cert.Spec.SP .f32) (out : FVec Ideal Cert.Spec.SO .f32)
    (hout : ∀ r : Fin 16384, out (ix2 r (0 : Fin 1)) = Cert.Spec.rowOut x P r)
    (h1 : Cert.Spec.SO.ReducesTo [0, 1] (⟨0, ![]⟩ : Shape)) (h2 : 0 < (⟨0, ![]⟩ : Shape).numel) :
    Host.reduceAdd (F := Ideal) out (constant (F := Ideal) (⟨0, ![]⟩ : Shape) .f32 0x00000000#32) h1 h2
      = Host.reduceAdd (F := Ideal)
          (mulf x (Host.dotGeneral (F := Ideal) Cert.ReferenceIdeal.dot_S16384x16384_S16384x16_S16384x16_1_0_0_1_n_n none P x))
          (constant (F := Ideal) Cert.ReferenceIdeal.S_ .f32 0x00000000#32)
          Cert.ReferenceIdeal.Gen.reducesTo_S16384x16_S_d0_1 Cert.ReferenceIdeal.Gen.h_S_ := by
  funext i
  refine (Ideal.hostReduceAdd_total h1 (fun b => b.elim0) out _ i).trans ?_
  refine Eq.trans ?_ (Ideal.hostReduceAdd_total Cert.ReferenceIdeal.Gen.reducesTo_S16384x16_S_d0_1 (fun b => b.elim0) _ _ i).symm
  exact congrArg (_ + ·) ((kernel_total x P out hout).trans (reference_total x P).symm)

end Cert.Bridge

end
-- ==== Proof.lean ====
/-
  The kernel computes |sum(input * (P @ input))| / 16 for input [16384, 16] and P [16384, 16384].

  It walks a 16 x 8 grid: row block i of 1024 rows, column block k of 2048 columns of P.  At each point it
  adds the product of P's (i, k) block with the input's k-th row block to an accumulator that is zeroed at
  k = 0; at k = 7 it multiplies the accumulator by the input's i-th row block, sums each row's sixteen
  products, and stores 1024 row sums.  The host then adds the 16384 row sums to zero, takes the absolute
  value and divides by 16.  The reference forms P @ input in one product, multiplies by the input, adds all
  16384 x 16 entries to zero, takes the absolute value and divides by 16.

  Frames: each program terminates without fault and leaves both arguments unchanged.  For the kernel this
  is the launch of its one region followed by the host operations; the input array is staged by two
  windows, each holding half of it, and both only read it.  For the reference it is its run with the result
  dropped.

  Equality at the exact values: a change of float format is the identity, the eight accumulated block
  products of row r and column c are the one product over all 16384 positions cut into eight consecutive
  runs, and the sum over the rows of the sums over the columns is the sum over all entries.  Only
  commutativity and associativity of addition on the extended reals are used, so the finiteness of the
  inputs is never needed.  The idealization rewrote no operation, so nothing is owed for it.
-/
import proofs.«118014_j1614907703898_2_alg».proof.Defs
import proofs.«118014_j1614907703898_2_alg».proof.Proof.Gen.Kernel
import proofs.«118014_j1614907703898_2_alg».proof.Proof.Gen.KernelIdeal
import proofs.«118014_j1614907703898_2_alg».proof.Proof.Gen.ReferenceIdeal
import proofs.«118014_j1614907703898_2_alg».proof.Proof.Gen.Pre_finite_inputs
import proofs.«118014_j1614907703898_2_alg».proof.Proof.Gen.ReferenceIdeal.Run
import proofs.«118014_j1614907703898_2_alg».proof.Proof.Gen.ReferenceIdeal.Read
import proofs.«118014_j1614907703898_2_alg».proof.Proof.K.Main
import proofs.«118014_j1614907703898_2_alg».proof.Proof.KI.Main
import proofs.«118014_j1614907703898_2_alg».proof.Proof.KIValue.ResultVal
import proofs.«118014_j1614907703898_2_alg».proof.Proof.KIValue.OutFinal
import proofs.«118014_j1614907703898_2_alg».proof.Proof.Bridge.Result
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_k : Cert.frame_Kernel := fun m ρ _ => Cert.Kernel.Hand.frame (F := Bits) m ρ

/-- So does the kernel read at the exact values. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the exact values the kernel's result and the reference's are one number: both are the absolute value
    of zero plus a sum, divided by 16, and the two sums agree — the kernel's over the 16384 row sums, each the
    row's sixteen products with the accumulated eight block products, the reference's over all entries of
    input times (P @ input). -/
theorem algebraic : Cert.algebraic_KernelIdeal_ReferenceIdeal := by
  intro m ρ m' ρ' _ hagree
  refine ⟨fun c => Cert.KernelIdeal.Hand.finalVal (F := Ideal) m c Cert.KernelIdeal.main_v3,
    (θ_run Cert.KernelIdeal.defs _ _).mono (fun _ h => h) (Cert.KernelIdeal.Hand.run_main (F := Ideal) m ρ), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  show _ = Cert.KernelIdeal.Hand.finalVal (F := Ideal) m c Cert.KernelIdeal.main_v3
  rw [Cert.KernelIdeal.HandValue.result_val m c Cert.KernelIdeal.Gen.reducesTo_S16384x1_S_d0_1 Cert.KernelIdeal.Gen.h_S_,
    Cert.Bridge.reduce_eq _ _ _ (Cert.KernelIdeal.HandValue.out_final m c) Cert.KernelIdeal.Gen.reducesTo_S16384x1_S_d0_1 Cert.KernelIdeal.Gen.h_S_]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
